-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S16x2048 : Shape := ⟨2, ![16, 2048]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S16x2048 : S_.BroadcastsInDim S16x2048 (![] : Fin 0 → Fin S16x2048.rank)
  reducesTo_S16x2048_S_d0_1 : S16x2048.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S16x2048x128 .f32) (main_arg1 : FVec F S16x2048x2048 .f32) (main_arg2 : FVec F S16x2048 .f32) (main_arg3 : FVec F S128x64 .f32) (main_arg4 : FVec F S64 .f32) (main_arg5 : FVec F S64x64 .f32) (main_arg6 : FVec F S64 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  let main_v9 : FVec F S16x2048 .f32 := Host.absf main_arg2
  let main_cst_2 : FVec F S_ .f32 := constant S_ .f32 0x7F800000#32
  let main_v10 : FVec F S16x2048 .f32 := broadcastInDim S16x2048 ![] bcast_S_S16x2048 main_cst_2
  let main_v11 : IVec S16x2048 1 := cmpf .olt main_v9 main_v10
  let main_c_3 : IVec S_ 1 := constantI S_ 1 1#1
  let main_v12 : IVec S_ 1 := (fun x v => Host.reduce IntOp.andi x v reducesTo_S16x2048_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S16x2048x128 : Shape := ⟨3, ![16, 2048, 128]⟩
abbrev S16x2048x2048 : Shape := ⟨3, ![16, 2048, 2048]⟩
abbrev S16x2048 : Shape := ⟨2, ![16, 2048]⟩
abbrev S128x64 : Shape := ⟨2, ![128, 64]⟩
abbrev S64 : Shape := ⟨1, ![64]⟩
abbrev S64x64 : Shape := ⟨2, ![64, 64]⟩
abbrev S16x2048x1 : Shape := ⟨3, ![16, 2048, 1]⟩
abbrev S1x64 : Shape := ⟨2, ![1, 64]⟩
abbrev S16x64x128 : Shape := ⟨3, ![16, 64, 128]⟩
abbrev S16x64x64 : Shape := ⟨3, ![16, 64, 64]⟩
abbrev S1x2048x128 : Shape := ⟨3, ![1, 2048, 128]⟩
abbrev S1x2048x1 : Shape := ⟨3, ![1, 2048, 1]⟩
abbrev S1x1024x2048 : Shape := ⟨3, ![1, 1024, 2048]⟩
abbrev S1x64x128 : Shape := ⟨3, ![1, 64, 128]⟩
abbrev S1x64x64 : Shape := ⟨3, ![1, 64, 64]⟩
abbrev S2048x64 : Shape := ⟨2, ![2048, 64]⟩
abbrev S64x128 : Shape := ⟨2, ![64, 128]⟩
abbrev S2048x128 : Shape := ⟨2, ![2048, 128]⟩
abbrev S2048x1 : Shape := ⟨2, ![2048, 1]⟩
abbrev S2048 : Shape := ⟨1, ![2048]⟩
abbrev S1024x64 : Shape := ⟨2, ![1024, 64]⟩
abbrev S1x1024x128 : Shape := ⟨3, ![1, 1024, 128]⟩
abbrev S1024x128 : Shape := ⟨2, ![1024, 128]⟩
abbrev S1024x2048 : Shape := ⟨2, ![1024, 2048]⟩
abbrev S_ : Shape := ⟨0, ![]⟩
abbrev S16x64 : Shape := ⟨2, ![16, 64]⟩

abbrev nBuf : Space → Nat
  | .hbm => 14
  | .vmem => 17
  | .smem => 0
  | _ => 0

abbrev bufTy : (tb : Table) → Fin (tcTables nBuf tb) → BufTy
  | .hbm, ⟨0, _⟩ => ⟨S16x2048x128, .f32⟩
  | .hbm, ⟨1, _⟩ => ⟨S16x2048x2048, .f32⟩
  | .hbm, ⟨2, _⟩ => ⟨S16x2048, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S16x2048x1, .f32⟩
  | .hbm, ⟨8, _⟩ => ⟨S1x64, .f32⟩
  | .hbm, ⟨9, _⟩ => ⟨S1x64, .f32⟩
  | .hbm, ⟨10, _⟩ => ⟨S16x64x128, .f32⟩
  | .hbm, ⟨11, _⟩ => ⟨S16x64x64, .f32⟩
  | .hbm, ⟨12, _⟩ => ⟨S_, .f32⟩
  | .hbm, ⟨13, _⟩ => ⟨S16x64, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x1, .f32⟩
  | .local _ .vmem, ⟨3, _⟩ => ⟨S1x2048x1, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x1024x2048, .f32⟩
  | .local _ .vmem, ⟨9, _⟩ => ⟨S1x1024x2048, .f32⟩
  | .local _ .vmem, ⟨10, _⟩ => ⟨S1x64x128, .f32⟩
  | .local _ .vmem, ⟨11, _⟩ => ⟨S1x64x128, .f32⟩
  | .local _ .vmem, ⟨12, _⟩ => ⟨S1x64x64, .f32⟩
  | .local _ .vmem, ⟨13, _⟩ => ⟨S1x64x64, .f32⟩
  | .local _ .vmem, ⟨14, _⟩ => ⟨S2048x64, .f32⟩
  | .local _ .vmem, ⟨15, _⟩ => ⟨S64x128, .f32⟩
  | .local _ .vmem, ⟨16, _⟩ => ⟨S64x64, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_cst : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_off2 (i : grid0.Coords) : Fin 3 → Nat :=
  let c0_1 : Index := 0#32
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  let c0_2 : Index := 0#32
  ![0, v7.toNat, 0]
def k0_cond2 (i : grid0.Coords) : BitVec 1 :=
  let arg1 : BitVec 32 := BitVec.ofNat 32 (i 1).val
  let c1_i32 : BitVec 32 := 1#32
  let v26 : BitVec 1 := Scalar.cmpi .eq arg1 c1_i32
  let v27 : BitVec 32 := Scalar.extui v26
  let c0_i32_18 : BitVec 32 := 0#32
  let v28 : BitVec 1 := Scalar.cmpi .ne v27 c0_i32_18
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bcast_S16x2048_S16x2048x1_0_1 : S16x2048.BroadcastsInDim S16x2048x1 (![0, 1] : Fin 2 → Fin S16x2048x1.rank)
  shapeCasts_S64_S1x64 : S64.ShapeCasts S1x64
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x64_S64x64_0_0 : ∀ a, (![0, 0] : Fin 2 → Nat) a + S64x64.size a ≤ S64x64.size a
  h_S64x64 : 0 < S64x64.numel
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  broadcasts_S2048x1_S2048x64 : S2048x1.Broadcasts S2048x64
  reduces_S2048x64_S2048 : S2048x64.Reduces [1] S2048
  shapeCasts_S2048_S2048x1 : S2048.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x64_S64x64 : S64x64.ShapeCasts S64x64
  h_S1024x64 : 0 < S1024x64.numel
  h_S1x1024x128 : 0 < S1x1024x128.numel
  shapeCasts_S1x1024x128_S1024x128 : S1x1024x128.ShapeCasts S1024x128
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  bcast_S_S16x64 : S_.BroadcastsInDim S16x64 (![] : Fin 0 → Fin S16x64.rank)
  dot_S2048x128_S128x64_S2048x64_1_0_0_1_n_n_wf : DotDims.WF S2048x128 S128x64 S2048x64 [1] [0] [0] [1] [] []
  dot_S2048x64_S64x64_S2048x64_1_0_0_1_n_n_wf : DotDims.WF S2048x64 S64x64 S2048x64 [1] [0] [0] [1] [] []
  dot_S1024x2048_S2048x64_S1024x64_1_0_0_1_n_n_wf : DotDims.WF S1024x2048 S2048x64 S1024x64 [1] [0] [0] [1] [] []
  dot_S1024x64_S1024x64_S64x64_0_0_1_1_n_n_wf : DotDims.WF S1024x64 S1024x64 S64x64 [0] [0] [1] [1] [] []
  dot_S1024x64_S1024x128_S64x128_0_0_1_1_n_n_wf : DotDims.WF S1024x64 S1024x128 S64x128 [0] [0] [1] [1] [] []
  hrank0 : 0 < grid0.rank
  k0_mult1_dvd : ∀ i : grid0.Coords, 1024 ∣ (k0_mult1 i).toNat
  k0_off1_inb : ∀ i : grid0.Coords, ∀ a, (k0_off1 i) a + S1024x64.size a ≤ S2048x64.size a
  k0_off2_inb : ∀ i : grid0.Coords, ∀ a, (k0_off2 i) a + S1x1024x128.size a ≤ S1x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x2048x128.size a
  hwx0_0 : ∀ i : grid0.Coords, EltTy.bits .f32 = 32 ∨ (Rect.block (s := S16x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S16x2048x1.size a
  hwx0_1 : ∀ i : grid0.Coords, EltTy.bits .f32 = 32 ∨ (Rect.block (s := S16x2048x1) S1x2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x2048.size a ≤ S16x2048x2048.size a
  hwx0_6 : ∀ i : grid0.Coords, EltTy.bits .f32 = 32 ∨ (Rect.block (s := S16x2048x2048) S1x1024x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x128.size a ≤ S16x64x128.size a
  hwx0_7 : ∀ i : grid0.Coords, EltTy.bits .f32 = 32 ∨ (Rect.block (s := S16x64x128) S1x64x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x64.size a ≤ S16x64x64.size a
  hwx0_8 : ∀ i : grid0.Coords, EltTy.bits .f32 = 32 ∨ (Rect.block (s := S16x64x64) S1x64x64.size (cc0_transform_8 i) (hinb0_8 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S1024x64_S64x64_0_0_1_1_n_n : DotDims S1024x64 S1024x64 S64x64 where
  lhsContracting := [0]
  rhsContracting := [0]
  lhsNonContracting := [1]
  rhsNonContracting := [1]
  lhsBatch := []
  rhsBatch := []
  wf := dot_S1024x64_S1024x64_S64x64_0_0_1_1_n_n_wf
def dot_S1024x64_S1024x128_S64x128_0_0_1_1_n_n : DotDims S1024x64 S1024x128 S64x128 where
  lhsContracting := [0]
  rhsContracting := [0]
  lhsNonContracting := [1]
  rhsNonContracting := [1]
  lhsBatch := []
  rhsBatch := []
  wf := dot_S1024x64_S1024x128_S64x128_0_0_1_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S1x1024x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1x64x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1x64x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S16x2048 : Shape := ⟨2, ![16, 2048]⟩
abbrev S128x64 : Shape := ⟨2, ![128, 64]⟩
abbrev S64 : Shape := ⟨1, ![64]⟩
abbrev S64x64 : Shape := ⟨2, ![64, 64]⟩
abbrev S16x2048x64 : Shape := ⟨3, ![16, 2048, 64]⟩
abbrev S1x1x64 : Shape := ⟨3, ![1, 1, 64]⟩
abbrev S_ : Shape := ⟨0, ![]⟩
abbrev S16x2048x1 : Shape := ⟨3, ![16, 2048, 1]⟩
abbrev S16x64x128 : Shape := ⟨3, ![16, 64, 128]⟩
abbrev S16x64x64 : Shape := ⟨3, ![16, 64, 64]⟩
abbrev S16x64 : Shape := ⟨2, ![16, 64]⟩

abbrev nBuf : Space → Nat
  | .hbm => 46
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x2048, .f32⟩
  | .hbm, ⟨2, _⟩ => ⟨S16x2048, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S16x2048x64, .f32⟩
  | .hbm, ⟨8, _⟩ => ⟨S1x1x64, .f32⟩
  | .hbm, ⟨9, _⟩ => ⟨S16x2048x64, .f32⟩
  | .hbm, ⟨10, _⟩ => ⟨S16x2048x64, .f32⟩
  | .hbm, ⟨11, _⟩ => ⟨S_, .f32⟩
  | .hbm, ⟨12, _⟩ => ⟨S16x2048x64, .f32⟩
  | .hbm, ⟨13, _⟩ => ⟨S16x2048x64, .f32⟩
  | .hbm, ⟨14, _⟩ => ⟨S16x2048x64, .f32⟩
  | .hbm, ⟨15, _⟩ => ⟨S1x1x64, .f32⟩
  | .hbm, ⟨16, _⟩ => ⟨S16x2048x64, .f32⟩
  | .hbm, ⟨17, _⟩ => ⟨S16x2048x64, .f32⟩
  | .hbm, ⟨18, _⟩ => ⟨S_, .f32⟩
  | .hbm, ⟨19, _⟩ => ⟨S16x2048, .f32⟩
  | .hbm, ⟨20, _⟩ => ⟨S16x2048, .f32⟩
  | .hbm, ⟨21, _⟩ => ⟨S_, .f32⟩
  | .hbm, ⟨22, _⟩ => ⟨S16x2048, .f32⟩
  | .hbm, ⟨23, _⟩ => ⟨S16x2048, .f32⟩
  | .hbm, ⟨24, _⟩ => ⟨S16x2048x1, .f32⟩
  | .hbm, ⟨25, _⟩ => ⟨S16x2048x64, .f32⟩
  | .hbm, ⟨26, _⟩ => ⟨S16x2048x64, .f32⟩
  | .hbm, ⟨27, _⟩ => ⟨S_, .f32⟩
  | .hbm, ⟨28, _⟩ => ⟨S16x2048, .f32⟩
  | .hbm, ⟨29, _⟩ => ⟨S_, .f32⟩
  | .hbm, ⟨30, _⟩ => ⟨S16x2048, .f32⟩
  | .hbm, ⟨31, _⟩ => ⟨S16x2048, .f32⟩
  | .hbm, ⟨32, _⟩ => ⟨S16x2048x1, .f32⟩
  | .hbm, ⟨33, _⟩ => ⟨S16x2048x64, .f32⟩
  | .hbm, ⟨34, _⟩ => ⟨S16x2048x64, .f32⟩
  | .hbm, ⟨35, _⟩ => ⟨S16x2048x64, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S16x2048x64, .f32⟩
  | .hbm, ⟨40, _⟩ => ⟨S16x2048x64, .f32⟩
  | .hbm, ⟨41, _⟩ => ⟨S16x64x128, .f32⟩
  | .hbm, ⟨42, _⟩ => ⟨S16x2048x64, .f32⟩
  | .hbm, ⟨43, _⟩ => ⟨S16x64x64, .f32⟩
  | .hbm, ⟨44, _⟩ => ⟨S_, .f32⟩
  | .hbm, ⟨45, _⟩ => ⟨S16x64, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S16x2048x64_0_1_2 : S1x1x64.BroadcastsInDim S16x2048x64 (![0, 1, 2] : Fin 3 → Fin S16x2048x64.rank)
  bcast_S_S16x2048x64 : S_.BroadcastsInDim S16x2048x64 (![] : Fin 0 → Fin S16x2048x64.rank)
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x64_0_1_2 : S16x2048x1.BroadcastsInDim S16x2048x64 (![0, 1, 2] : Fin 3 → Fin S16x2048x64.rank)
  reducesTo_S16x2048x64_S16x2048_d2 : S16x2048x64.ReducesTo [2] S16x2048
  h_S_ : 0 < S_.numel
  bcast_S_S16x64 : S_.BroadcastsInDim S16x64 (![] : Fin 0 → Fin S16x64.rank)
  dot_S16x2048x128_S128x64_S16x2048x64_2_0_01_1_n_n_wf : DotDims.WF S16x2048x128 S128x64 S16x2048x64 [2] [0] [0, 1] [1] [] []
  dot_S16x2048x64_S64x64_S16x2048x64_2_0_01_1_n_n_wf : DotDims.WF S16x2048x64 S64x64 S16x2048x64 [2] [0] [0, 1] [1] [] []
  dot_S16x2048x64_S16x2048x128_S16x64x128_1_1_2_2_0_0_wf : DotDims.WF S16x2048x64 S16x2048x128 S16x64x128 [1] [1] [2] [2] [0] [0]
  dot_S16x2048x2048_S16x2048x64_S16x2048x64_2_1_1_2_0_0_wf : DotDims.WF S16x2048x2048 S16x2048x64 S16x2048x64 [2] [1] [1] [2] [0] [0]
  dot_S16x2048x64_S16x2048x64_S16x64x64_1_1_2_2_0_0_wf : DotDims.WF S16x2048x64 S16x2048x64 S16x64x64 [1] [1] [2] [2] [0] [0]

variable [Facts₀]

def dot_S16x2048x128_S128x64_S16x2048x64_2_0_01_1_n_n : DotDims S16x2048x128 S128x64 S16x2048x64 where
  lhsContracting := [2]
  rhsContracting := [0]
  lhsNonContracting := [0, 1]
  rhsNonContracting := [1]
  lhsBatch := []
  rhsBatch := []
  wf := dot_S16x2048x128_S128x64_S16x2048x64_2_0_01_1_n_n_wf
def dot_S16x2048x64_S64x64_S16x2048x64_2_0_01_1_n_n : DotDims S16x2048x64 S64x64 S16x2048x64 where
  lhsContracting := [2]
  rhsContracting := [0]
  lhsNonContracting := [0, 1]
  rhsNonContracting := [1]
  lhsBatch := []
  rhsBatch := []
  wf := dot_S16x2048x64_S64x64_S16x2048x64_2_0_01_1_n_n_wf
def dot_S16x2048x64_S16x2048x128_S16x64x128_1_1_2_2_0_0 : DotDims S16x2048x64 S16x2048x128 S16x64x128 where
  lhsContracting := [1]
  rhsContracting := [1]
  lhsNonContracting := [2]
  rhsNonContracting := [2]
  lhsBatch := [0]
  rhsBatch := [0]
  wf := dot_S16x2048x64_S16x2048x128_S16x64x128_1_1_2_2_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf
def dot_S16x2048x64_S16x2048x64_S16x64x64_1_1_2_2_0_0 : DotDims S16x2048x64 S16x2048x64 S16x64x64 where
  lhsContracting := [1]
  rhsContracting := [1]
  lhsNonContracting := [2]
  rhsNonContracting := [2]
  lhsBatch := [0]
  rhsBatch := [0]
  wf := dot_S16x2048x64_S16x2048x64_S16x64x64_1_1_2_2_0_0_wf

class Facts : Prop extends Facts₀ where

variable [Facts]
-- ==== Proof.Spec.lean ====
/-
  The common value of the two programs, index by index, on the extended reals.

  For every graph b and node n, the row of assignment scores is
      logit b n k = (∑ j, relu (∑ f, x[b,n,f]·W1[f,j] + b1[j]) · W2[j,k]) + b2[k] + (−1e9)·(1 − mask[b,n]),
  and the assignment matrix is the softmax of that row taken with the row's maximum subtracted,
      S[b,n,k] = exp (logit b n k − max_k' logit b n k') / ∑ k', exp (logit b n k' − max_k'' logit b n k'').
  The three results are
      pooledX[b,k,f]   = ∑ n, S[b,n,k] · x[b,n,f],
      pooledAdj[b,k,j] = ∑ n, S[b,n,k] · (∑ m, adj[b,n,m] · S[b,m,j]),
      ones[b,k]        = 1.
  Everything that depends on one node only is stated for ONE ROW (a row of x, the node's mask entry, the weights),
  so that a block of rows and the whole array are instances of the same definitions. The float words 1.0, −1e9 and −∞
  are kept as words: the same word stands on both sides and is never evaluated.
-/
import Idealize.ShloMosaic.PureOps.Ideal
import Idealize.ShloMosaic.Lib.ValueIdx

noncomputable section

open scoped BigOperators

namespace Cert.Spec

open Idealize.ShloMosaic Idealize.ShloMosaic.ValueIdx

/-- The word 1.0 as an extended real. -/
abbrev one : EReal := Ideal.ofBits .f32 0x3F800000#32
/-- The word −1e9 as an extended real. -/
abbrev negBig : EReal := Ideal.ofBits .f32 0xCE6E6B28#32
/-- The word −∞ as an extended real. -/
abbrev negInf : EReal := Ideal.ofBits .f32 0xFF800000#32

/-- The largest entry of a row of 64 scores: the fold of `max` from the word −∞. -/
def rowMax (l : Fin 64 → EReal) : EReal := (Finset.univ : Finset (Fin 64)).fold max negInf l

/-- The softmax of a row of 64 scores, the row's maximum subtracted before the exponential. -/
def softmaxRow (l : Fin 64 → EReal) (k : Fin 64) : EReal :=
  Ideal.div (Ideal.exp (l k - rowMax l)) (∑ k' : Fin 64, Ideal.exp (l k' - rowMax l))

/-- One node's masked scores from its row `xr` of features and its mask entry `mk`:
    relu (xr·W1 + b1)·W2 + b2 + (−1e9)·(1 − mk). -/
def rowLogit (W1 : (⟨2, ![128, 64]⟩ : Shape).Idx → EReal) (b1 : Fin 64 → EReal)
    (W2 : (⟨2, ![64, 64]⟩ : Shape).Idx → EReal) (b2 : Fin 64 → EReal)
    (xr : Fin 128 → EReal) (mk : EReal) (k : Fin 64) : EReal :=
  ((∑ j : Fin 64, max ((∑ f : Fin 128, xr f * W1 (ix2 f j)) + b1 j) 0 * W2 (ix2 j k)) + b2 k) + negBig * (one - mk)

/-- One node's row of the assignment matrix. -/
def rowAssign (W1 : (⟨2, ![128, 64]⟩ : Shape).Idx → EReal) (b1 : Fin 64 → EReal)
    (W2 : (⟨2, ![64, 64]⟩ : Shape).Idx → EReal) (b2 : Fin 64 → EReal)
    (xr : Fin 128 → EReal) (mk : EReal) (k : Fin 64) : EReal :=
  softmaxRow (rowLogit W1 b1 W2 b2 xr mk) k

section arrays

variable (x : (⟨3, ![16, 2048, 128]⟩ : Shape).Idx → EReal) (adj : (⟨3, ![16, 2048, 2048]⟩ : Shape).Idx → EReal)
  (mask : (⟨2, ![16, 2048]⟩ : Shape).Idx → EReal) (W1 : (⟨2, ![128, 64]⟩ : Shape).Idx → EReal)
  (b1 : (⟨1, ![64]⟩ : Shape).Idx → EReal) (W2 : (⟨2, ![64, 64]⟩ : Shape).Idx → EReal)
  (b2 : (⟨1, ![64]⟩ : Shape).Idx → EReal)

/-- The assignment matrix S[b,n,k] of the whole arrays. -/
def assign (b : Fin 16) (n : Fin 2048) (k : Fin 64) : EReal :=
  rowAssign W1 (fun j => b1 (ix1 j)) W2 (fun j => b2 (ix1 j)) (fun f => x (ix3 b n f)) (mask (ix2 b n)) k

/-- pooledX[b,k,f] = ∑ n, S[b,n,k]·x[b,n,f]. -/
def pooledX : (⟨3, ![16, 64, 128]⟩ : Shape).Idx → EReal := fun i =>
  ∑ n : Fin 2048, assign x mask W1 b1 W2 b2 (i 0) n (i 1) * x (ix3 (i 0) n (i 2))

/-- pooledAdj[b,k,j] = ∑ n, S[b,n,k]·(∑ m, adj[b,n,m]·S[b,m,j]). -/
def pooledAdj : (⟨3, ![16, 64, 64]⟩ : Shape).Idx → EReal := fun i =>
  ∑ n : Fin 2048, assign x mask W1 b1 W2 b2 (i 0) n (i 1)
    * ∑ mm : Fin 2048, adj (ix3 (i 0) n mm) * assign x mask W1 b1 W2 b2 (i 0) mm (i 2)

end arrays

/-- Row `r` of the `i`-th block of 1024 consecutive rows, as a row of the whole 2048: 1024·i + r. -/
def tileRow (i : Fin 2) (r : Fin 1024) : Fin 2048 :=
  ⟨1024 * i.val + r.val, by have := i.isLt; have := r.isLt; omega⟩

theorem tileRow_val (i : Fin 2) (r : Fin 1024) : (tileRow i r).val = 1024 * i.val + r.val := rfl

/-- The constant third result. -/
def ones : (⟨2, ![16, 64]⟩ : Shape).Idx → EReal := fun _ => one

end Cert.Spec

end
-- ==== Proof.RefSpec.lean ====
/-
  The reference computes the specification, index by index, on the extended reals.

  Read one operation at a time, the reference forms for every graph b and node n the hidden layer
  relu (x[b,n,:]·W1 + b1), the scores (hidden·W2 + b2) + (−1e9)·(1 − mask[b,n]), the largest score of the row,
  the exponentials of the scores less that largest one, their sum, and the quotient: the assignment matrix
  S[b,n,k]. Its three results are then Sᵀ·x, Sᵀ·(adj·S) graph by graph, and the constant 1.
  Each step below names the stage's element at an index built from its coordinates; the last three theorems say
  that the three results are the specification's `pooledX`, `pooledAdj` and `ones`.
  The row's largest score is a fold of `max` that starts from the word −∞, and the reference takes once more
  the larger of that word and the fold: a fold of `max` is at least the value it starts from, so nothing changes
  and the word is never evaluated.
-/
import proofs.«111252_j38809324486702_2_alg».proof.Proof.Spec
import proofs.«111252_j38809324486702_2_alg».proof.Proof.Gen.ReferenceIdeal.Read

noncomputable section

open scoped BigOperators

namespace Cert.RefSpec

open Cert.ReferenceIdeal Cert.ReferenceIdeal.Read Idealize.ShloMosaic Idealize.ShloMosaic.ValueIdx

/-- The hidden layer at graph b, node n, unit j: max (∑ f, x[b,n,f]·W1[f,j] + b1[j], 0). -/
theorem hidden_eq (x0 : (⟨S16x2048x128, .f32⟩ : BufTy).Contents (Elt Ideal)) (x3 : (⟨S128x64, .f32⟩ : BufTy).Contents (Elt Ideal)) (x4 : (⟨S64, .f32⟩ : BufTy).Contents (Elt Ideal))
    (b : Fin 16) (n : Fin 2048) (j : Fin 64) :
    val_main_v4 (F := Ideal) x0 x3 x4 (ix3 b n j)
      = max ((∑ f : Fin 128, x0 (ix3 b n f) * x3 (ix2 f j)) + x4 (ix1 j)) 0 := by
  have e0 : ∀ f : Fin 128, lidx_main_v0 (ix3 b n j) f = ix3 b n f := fun f =>
    funext fun a => Fin.ext (by match a with | ⟨0, _⟩ => rfl | ⟨1, _⟩ => rfl | ⟨2, _⟩ => rfl)
  have e1 : ∀ f : Fin 128, ridx_main_v0 (ix3 b n j) f = ix2 f j := fun f =>
    funext fun a => Fin.ext (by match a with | ⟨0, _⟩ => rfl | ⟨1, _⟩ => rfl)
  have e2 : idx_main_v1 (idx_main_v2 (ix3 b n j)) = ix1 j :=
    funext fun a => Fin.ext (by match a with | ⟨0, _⟩ => rfl)
  rw [val_main_v4_apply, val_main_v3_apply, val_main_v0_apply, val_main_v2_apply, val_main_v1_apply,
    val_main_call0_v0_apply, val_main_call0_cst_apply]
  simp only [e0, e1, e2, Ideal.maximumf_def, Ideal.addf_def, Ideal.ofBits_def, Ideal.ofBits_zero_f32]

/-- The masked score at graph b, node n, cluster k is the specification's score of that node's row:
    (∑ j, hidden[b,n,j]·W2[j,k] + b2[k]) + (−1e9)·(1 − mask[b,n]). -/
theorem logit_eq (x0 : (⟨S16x2048x128, .f32⟩ : BufTy).Contents (Elt Ideal)) (x2 : (⟨S16x2048, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (b : Fin 16) (n : Fin 2048) (k : Fin 64) :
    val_main_v15 (F := Ideal) x0 x2 x3 x4 x5 x6 (ix3 b n k)
      = Cert.Spec.rowLogit x3 (fun j => x4 (ix1 j)) x5 (fun j => x6 (ix1 j)) (fun f => x0 (ix3 b n f)) (x2 (ix2 b n)) k := by
  have e0 : ∀ j : Fin 64, lidx_main_v5 (ix3 b n k) j = ix3 b n j := fun j =>
    funext fun a => Fin.ext (by match a with | ⟨0, _⟩ => rfl | ⟨1, _⟩ => rfl | ⟨2, _⟩ => rfl)
  have e1 : ∀ j : Fin 64, ridx_main_v5 (ix3 b n k) j = ix2 j k := fun j =>
    funext fun a => Fin.ext (by match a with | ⟨0, _⟩ => rfl | ⟨1, _⟩ => rfl)
  have e2 : idx_main_v6 (idx_main_v7 (ix3 b n k)) = ix1 k :=
    funext fun a => Fin.ext (by match a with | ⟨0, _⟩ => rfl)
  have e3 : idx_main_v13 (idx_main_v14 (ix3 b n k)) = ix2 b n :=
    funext fun a => Fin.ext (by match a with | ⟨0, _⟩ => rfl | ⟨1, _⟩ => rfl)
  rw [val_main_v15_apply, val_main_v8_apply, val_main_v5_apply, val_main_v7_apply, val_main_v6_apply,
    val_main_v14_apply, val_main_v13_apply, val_main_v12_apply, val_main_v11_apply, val_main_cst_0_apply,
    val_main_v10_apply, val_main_v9_apply, val_main_cst_apply]
  simp only [e0, e1, e2, e3, hidden_eq, Ideal.addf_def, Ideal.mulf_def, Ideal.subf_def, Ideal.ofBits_def]
  rfl

/-- A reduction by maximum over the last axis of a 16 × 2048 × 64 array, at row (b, n): the fold of `max`
    over the row's 64 entries, from the initial value. -/
theorem reduce_max_row (y : FVec Ideal S16x2048x64 .f32) (c : FVec Ideal S_ .f32) (b : Fin 16) (n : Fin 2048) :
    Host.reduce FloatOps.maximumf y c Gen.reducesTo_S16x2048x64_S16x2048_d2 Gen.h_S_ (ix2 b n)
      = (Finset.univ : Finset (Fin 64)).fold max (c (Shape.Idx.first Gen.h_S_)) (fun k => y (ix3 b n k)) := by
  have h : S16x2048x64.Reduces [2] S16x2048 := by decide
  rw [Host.reduce_eq_fold_single FloatOps.maximumf y c Gen.reducesTo_S16x2048x64_S16x2048_d2 h Gen.h_S_ (ix2 b n)]
  have el : y ∘ h.lift (ix2 b n) = fun k : Fin 64 => y (ix3 b n k) :=
    funext fun k => congrArg y (funext fun a => Fin.ext (by
      match a with | ⟨0, _⟩ => rfl | ⟨1, _⟩ => rfl | ⟨2, _⟩ => rfl))
  rw [el]
  rfl

/-- The row's largest score. The reference takes the larger of the word −∞ and the fold of `max` from that same
    word; the fold is at least the value it starts from, so this is the fold itself. -/
theorem rowmax_eq (x0 : (⟨S16x2048x128, .f32⟩ : BufTy).Contents (Elt Ideal)) (x2 : (⟨S16x2048, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (b : Fin 16) (n : Fin 2048) :
    val_main_v18 (F := Ideal) x0 x2 x3 x4 x5 x6 (ix2 b n)
      = Cert.Spec.rowMax (fun k => val_main_v15 (F := Ideal) x0 x2 x3 x4 x5 x6 (ix3 b n k)) := by
  rw [val_main_v18_apply, val_main_v17_apply, val_main_cst_2_apply]
  unfold val_main_v16
  generalize val_main_v15 (F := Ideal) x0 x2 x3 x4 x5 x6 = y
  refine (congrArg (FloatOps.maximumf (FloatOps.ofBits .f32 0xFF800000#32)) (reduce_max_row y _ b n)).trans ?_
  rw [val_main_cst_1_apply]
  exact max_eq_right ((Finset.le_fold_max _).2 (Or.inl le_rfl))

/-- The exponential of a score less its row's largest score. -/
theorem exp_eq (x0 : (⟨S16x2048x128, .f32⟩ : BufTy).Contents (Elt Ideal)) (x2 : (⟨S16x2048, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (b : Fin 16) (n : Fin 2048) (k : Fin 64) :
    val_main_v22 (F := Ideal) x0 x2 x3 x4 x5 x6 (ix3 b n k)
      = Ideal.exp (val_main_v15 (F := Ideal) x0 x2 x3 x4 x5 x6 (ix3 b n k)
          - Cert.Spec.rowMax (fun k' => val_main_v15 (F := Ideal) x0 x2 x3 x4 x5 x6 (ix3 b n k'))) := by
  have e0 : idx_main_v19 (idx_main_v20 (ix3 b n k)) = ix2 b n :=
    funext fun a => Fin.ext (by match a with | ⟨0, _⟩ => rfl | ⟨1, _⟩ => rfl)
  rw [val_main_v22_apply, val_main_v21_apply, val_main_v20_apply, val_main_v19_apply, e0, rowmax_eq]
  rfl

/-- The quotient of the exponential by the row's sum of exponentials is the assignment matrix S[b,n,k]. -/
theorem assign_eq (x0 : (⟨S16x2048x128, .f32⟩ : BufTy).Contents (Elt Ideal)) (x2 : (⟨S16x2048, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (b : Fin 16) (n : Fin 2048) (k : Fin 64) :
    val_main_v26 (F := Ideal) x0 x2 x3 x4 x5 x6 (ix3 b n k) = Cert.Spec.assign x0 x2 x3 x4 x5 x6 b n k := by
  have e0 : idx_main_v24 (idx_main_v25 (ix3 b n k)) = ix2 b n :=
    funext fun a => Fin.ext (by match a with | ⟨0, _⟩ => rfl | ⟨1, _⟩ => rfl)
  have e1 : ∀ k' : Fin 64, idx_main_v23 (ix2 b n) k' = ix3 b n k' := fun k' =>
    funext fun a => Fin.ext (by match a with | ⟨0, _⟩ => rfl | ⟨1, _⟩ => rfl | ⟨2, _⟩ => rfl)
  rw [val_main_v26_apply, val_main_v25_apply, val_main_v24_apply, e0, val_main_v23_apply, val_main_cst_3_apply]
  simp only [e1, exp_eq, logit_eq, Ideal.hostDivf_def, Ideal.ofBits_def, Ideal.ofBits_zero_f32, zero_add]
  rfl

/-- The first result: the assignment matrix's transpose times the features, graph by graph. -/
theorem v27_eq (x0 : (⟨S16x2048x128, .f32⟩ : BufTy).Contents (Elt Ideal)) (x2 : (⟨S16x2048, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    Cert.ReferenceIdeal.Read.val_main_v27 (F := Ideal) x0 x2 x3 x4 x5 x6 = Cert.Spec.pooledX x0 x2 x3 x4 x5 x6 := by
  funext i
  obtain ⟨b, k, f, rfl⟩ : ∃ (b : Fin 16) (k : Fin 64) (f : Fin 128), i = ix3 b k f := ⟨i 0, i 1, i 2, eq_ix3 i⟩
  have e0 : ∀ n : Fin 2048, lidx_main_v27 (ix3 b k f) n = ix3 b n k := fun n =>
    funext fun a => Fin.ext (by match a with | ⟨0, _⟩ => rfl | ⟨1, _⟩ => rfl | ⟨2, _⟩ => rfl)
  have e1 : ∀ n : Fin 2048, ridx_main_v27 (ix3 b k f) n = ix3 b n f := fun n =>
    funext fun a => Fin.ext (by match a with | ⟨0, _⟩ => rfl | ⟨1, _⟩ => rfl | ⟨2, _⟩ => rfl)
  rw [val_main_v27_apply]
  simp only [e0, e1, assign_eq]
  rfl

/-- The adjacency times the assignment matrix, at node n and cluster j of graph b. -/
theorem adjAssign_eq (x0 : (⟨S16x2048x128, .f32⟩ : BufTy).Contents (Elt Ideal)) (x1 : (⟨S16x2048x2048, .f32⟩ : BufTy).Contents (Elt Ideal)) (x2 : (⟨S16x2048, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (b : Fin 16) (n : Fin 2048) (j : Fin 64) :
    val_main_v28 (F := Ideal) x0 x1 x2 x3 x4 x5 x6 (ix3 b n j)
      = ∑ m : Fin 2048, x1 (ix3 b n m) * Cert.Spec.assign x0 x2 x3 x4 x5 x6 b m j := by
  have e0 : ∀ m : Fin 2048, lidx_main_v28 (ix3 b n j) m = ix3 b n m := fun m =>
    funext fun a => Fin.ext (by match a with | ⟨0, _⟩ => rfl | ⟨1, _⟩ => rfl | ⟨2, _⟩ => rfl)
  have e1 : ∀ m : Fin 2048, ridx_main_v28 (ix3 b n j) m = ix3 b m j := fun m =>
    funext fun a => Fin.ext (by match a with | ⟨0, _⟩ => rfl | ⟨1, _⟩ => rfl | ⟨2, _⟩ => rfl)
  rw [val_main_v28_apply]
  simp only [e0, e1, assign_eq]

/-- The second result: the assignment matrix's transpose times the adjacency times the assignment matrix. -/
theorem v29_eq (x0 : (⟨S16x2048x128, .f32⟩ : BufTy).Contents (Elt Ideal)) (x1 : (⟨S16x2048x2048, .f32⟩ : BufTy).Contents (Elt Ideal)) (x2 : (⟨S16x2048, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    Cert.ReferenceIdeal.Read.val_main_v29 (F := Ideal) x0 x1 x2 x3 x4 x5 x6 = Cert.Spec.pooledAdj x0 x1 x2 x3 x4 x5 x6 := by
  funext i
  obtain ⟨b, k, j, rfl⟩ : ∃ (b : Fin 16) (k : Fin 64) (j : Fin 64), i = ix3 b k j := ⟨i 0, i 1, i 2, eq_ix3 i⟩
  have e0 : ∀ n : Fin 2048, lidx_main_v29 (ix3 b k j) n = ix3 b n k := fun n =>
    funext fun a => Fin.ext (by match a with | ⟨0, _⟩ => rfl | ⟨1, _⟩ => rfl | ⟨2, _⟩ => rfl)
  have e1 : ∀ n : Fin 2048, ridx_main_v29 (ix3 b k j) n = ix3 b n j := fun n =>
    funext fun a => Fin.ext (by match a with | ⟨0, _⟩ => rfl | ⟨1, _⟩ => rfl | ⟨2, _⟩ => rfl)
  rw [val_main_v29_apply]
  simp only [e0, e1, assign_eq, adjAssign_eq]
  rfl

/-- The third result: the word 1.0 everywhere. -/
theorem v30_eq : Cert.ReferenceIdeal.Read.val_main_v30 (F := Ideal) = Cert.Spec.ones := by
  funext i
  rw [val_main_v30_apply, val_main_cst_4_apply]
  rfl

end Cert.RefSpec

end
-- ==== Proof.Pieces.lean ====
/-
  What one grid point's body leaves in its three scratch buffers and two output buffers, as values.

  A point's body reads a tile of 1024 consecutive rows of the [2048,64] scratch (the assignment matrix of the graph) and
  the same rows of the graph's block of x, and adds two products to the two accumulators. At the first of a graph's
  two points (case A) it first fills the scratch with the assignment matrix and zeroes the accumulators; at the second
  (case B) it finds all three as the first point left them, and afterwards copies the accumulators to the outputs.
  Each buffer's final contents is the payload of the last store that covers it, over the loads' values.
-/
import proofs.«111252_j38809324486702_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KPieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The tile of 1024 rows of a [2048,64] array that the point with coordinates `i` loads: rows 1024·i₁ onward. -/
def tileS (P : Vec F S2048x64 .f32) (i : grid0.Coords) : Vec F S1024x64 .f32 :=
  View.ld P (Rect.unit (s := S2048x64) (k0_off1 i) S1024x64.size (k0_off1_inb i))

/-- The same rows of a [1,2048,128] block. -/
def tileX (x0 : Vec F S1x2048x128 .f32) (i : grid0.Coords) : Vec F S1x1024x128 .f32 :=
  View.ld x0 (Rect.unit (s := S1x2048x128) (k0_off2 i) S1x1024x128.size (k0_off2_inb i))

variable (c : Dev nD) (i : grid0.Coords)
  (arg2 : Memref sig .tc .vmem S1x2048x128 .f32) (harg2 : arg2.IsWhole)
  (arg3 : Memref sig .tc .vmem S1x2048x1 .f32) (harg3 : arg3.IsWhole)
  (arg4 : Memref sig .tc .vmem S128x64 .f32) (harg4 : arg4.IsWhole)
  (arg5 : Memref sig .tc .vmem S1x64 .f32) (harg5 : arg5.IsWhole)
  (arg6 : Memref sig .tc .vmem S64x64 .f32) (harg6 : arg6.IsWhole)
  (arg7 : Memref sig .tc .vmem S1x64 .f32) (harg7 : arg7.IsWhole)
  (arg8 : Memref sig .tc .vmem S1x1024x2048 .f32) (harg8 : arg8.IsWhole)
  (arg9 : Memref sig .tc .vmem S1x64x128 .f32) (harg9 : arg9.IsWhole)
  (arg10 : Memref sig .tc .vmem S1x64x64 .f32) (harg10 : arg10.IsWhole)
  (arg11 : Memref sig .tc .vmem S2048x64 .f32) (harg11 : arg11.IsWhole)
  (arg12 : Memref sig .tc .vmem S64x128 .f32) (harg12 : arg12.IsWhole)
  (arg13 : Memref sig .tc .vmem S64x64 .f32) (harg13 : arg13.IsWhole)
  (x0 : Vec F S1x2048x128 .f32) (x1 : Vec F S1x2048x1 .f32) (x2 : Vec F S128x64 .f32) (x3 : Vec F S1x64 .f32)
  (x4 : Vec F S64x64 .f32) (x5 : Vec F S1x64 .f32) (x6 : Vec F S1x1024x2048 .f32)

/-- Case A leaves the assignment matrix of the point's blocks in the [2048,64] scratch. -/
theorem sA0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k0_pay7 x0 x2 x3 x4 x5 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread,
    harg7.read_unread, View.ld_unit_zero (S := S1x2048x128) hz3, View.ld_unit_zero (S := S1x2048x1) hz3,
    View.ld_unit_zero (S := S128x64) hz2, View.ld_unit_zero (S := S1x64) hz2, View.ld_unit_zero (S := S64x64) hz2]

/-- Case A leaves, in the [64,128] accumulator, zero plus the tile's product Sᵀ·x. -/
theorem sA1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6
      = k0_pay4 (tileS (k0_pay7 x0 x2 x3 x4 x5 x1) i) (tileX x0 i) k0_pay1 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S64x128) hz2]
  simp only [View.readAt_writes_junk_eq_canon, View.canon_unit_zero (S := S2048x64) hz2, View.readCov_unit_zero (S := S64x128) _ hz2,
    View.readAt_eq_ld, harg2.read_unread, harg3.read_unread, harg4.read_unread, harg5.read_unread, harg6.read_unread,
    harg7.read_unread, View.ld_unit_zero (S := S1x2048x128) hz3, View.ld_unit_zero (S := S1x2048x1) hz3,
    View.ld_unit_zero (S := S128x64) hz2, View.ld_unit_zero (S := S1x64) hz2, View.ld_unit_zero (S := S64x64) hz2]
  rfl

/-- Case A leaves, in the [64,64] accumulator, zero plus the tile's product Sᵀ·(adj·S). -/
theorem sA2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6
      = k0_pay3 (tileS (k0_pay7 x0 x2 x3 x4 x5 x1) i) x6 (k0_pay7 x0 x2 x3 x4 x5 x1) k0_pay2 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S64x64) hz2]
  simp only [View.readAt_writes_junk_eq_canon, View.canon_unit_zero (S := S2048x64) hz2, View.readCov_unit_zero (S := S64x64) _ hz2,
    View.readCov_unit_zero (S := S2048x64) _ hz2,
    View.readAt_eq_ld, harg2.read_unread, harg3.read_unread, harg4.read_unread, harg5.read_unread, harg6.read_unread,
    harg7.read_unread, harg8.read_unread, View.ld_unit_zero (S := S1x2048x128) hz3, View.ld_unit_zero (S := S1x2048x1) hz3,
    View.ld_unit_zero (S := S1x1024x2048) hz3,
    View.ld_unit_zero (S := S128x64) hz2, View.ld_unit_zero (S := S1x64) hz2, View.ld_unit_zero (S := S64x64) hz2]
  rfl

variable (xs0 : Vec F S2048x64 .f32) (xs1 : Vec F S64x128 .f32) (xs2 : Vec F S64x64 .f32)

/-- Case B adds the tile's product Sᵀ·x to the [64,128] accumulator it found. -/
theorem sB1 (hc0 : ¬cond0_0 i) (hc1 : cond0_1 i) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = k0_pay4 (tileS xs0 i) (tileX x0 i) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_B
  dsimp only
  sl_unfold_words
  rw [View.canon_unit_zero hz2]
  simp only [View.readAt_eq_ld, harg2.read_unread, harg11.read_unread, harg12.read_unread,
    View.ld_unit_zero (S := S64x128) hz2]
  rfl

/-- Case B adds the tile's product Sᵀ·(adj·S) to the [64,64] accumulator it found. -/
theorem sB2 (hc0 : ¬cond0_0 i) (hc1 : cond0_1 i) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = k0_pay3 (tileS xs0 i) x6 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_B
  dsimp only
  sl_unfold_words
  rw [View.canon_unit_zero hz2]
  simp only [View.readAt_eq_ld, harg8.read_unread, harg11.read_unread, harg13.read_unread,
    View.ld_unit_zero (S := S64x64) hz2, View.ld_unit_zero (S := S2048x64) hz2, View.ld_unit_zero (S := S1x1024x2048) hz3]
  rfl

/-- Case B copies the updated [64,128] accumulator to the first output's block. -/
theorem oB7 (hc0 : ¬cond0_0 i) (hc1 : cond0_1 i) :
    out0_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = k0_pay5 (k0_pay4 (tileS xs0 i) (tileX x0 i) xs1) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_B
  dsimp only
  sl_unfold_words
  rw [View.canon_unit_zero hz3]
  simp only [View.readCov_unit_zero (S := S64x128) _ hz2, View.readAt_eq_ld, harg2.read_unread, harg11.read_unread, harg12.read_unread,
    View.ld_unit_zero (S := S64x128) hz2]
  rfl

/-- Case B copies the updated [64,64] accumulator to the second output's block. -/
theorem oB8 (hc0 : ¬cond0_0 i) (hc1 : cond0_1 i) :
    out0_B_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = k0_pay6 (k0_pay3 (tileS xs0 i) x6 xs0 xs2) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_B
  dsimp only
  sl_unfold_words
  rw [View.canon_unit_zero hz3]
  simp only [View.readCov_unit_zero (S := S64x64) _ hz2, View.readAt_eq_ld, harg8.read_unread, harg11.read_unread, harg13.read_unread,
    View.ld_unit_zero (S := S64x64) hz2, View.ld_unit_zero (S := S2048x64) hz2, View.ld_unit_zero (S := S1x1024x2048) hz3]
  rfl

end Cert.KPieces

end
-- ==== Proof.Chain.lean ====
/-
  What the scratch buffers and the outputs hold after a grid point, from the blocks of the point and of the point before.

  The grid runs graph by graph, two points per graph. After a graph's first point (an even point, case A) the scratch
  holds the graph's assignment matrix S and the accumulators hold 0 + (tile 0's products). After its second point (an
  odd point, case B) the accumulators hold that plus tile 1's products, and the two outputs' blocks are copies of them.
  Case A depends on nothing before it, so the value after an odd point needs only the point before: no induction.
-/
import proofs.«111252_j38809324486702_2_alg».proof.Proof.Pieces

set_option maxRecDepth 16384

noncomputable section

open Idealize.ShloMosaic Idealize.ShloMosaic.TcCoe Idealize.SL.Sem

namespace Cert.KChain

open Cert.KernelIdeal Cert.KernelIdeal.Gen Cert.KPieces

variable {F : FTy → Type} [FloatOps F]
variable (m : (ℓ : Loc nD τ sig) → Buf (Elt F) ℓ) (c : Dev nD)

/-- The assignment matrix of the graph whose blocks point `t` stages. -/
def asg (t : Fin cfg0.N) : Vec F S2048x64 .f32 :=
  k0_pay7 (iblk m c 0 t) (iblk m c 2 t) (iblk m c 3 t) (iblk m c 4 t) (iblk m c 5 t) (iblk m c 1 t)

/-- The [64,128] accumulator after an even point: zero plus the point's tile product. -/
def accX0 (t : Fin cfg0.N) : Vec F S64x128 .f32 :=
  k0_pay4 (tileS (asg m c t) (grid0.coords t)) (tileX (iblk m c 0 t) (grid0.coords t)) k0_pay1

/-- The [64,64] accumulator after an even point. -/
def accA0 (t : Fin cfg0.N) : Vec F S64x64 .f32 :=
  k0_pay3 (tileS (asg m c t) (grid0.coords t)) (iblk m c 6 t) (asg m c t) k0_pay2

/-- After an even point: the three scratch buffers. -/
theorem scratch_even (t : Fin cfg0.N) (h0 : t.val % 2 = 0) :
    (outsAt0 m c t.val t.isLt).2.2.1 = asg m c t
    ∧ (outsAt0 m c t.val t.isLt).2.2.2.1 = accX0 m c t
    ∧ (outsAt0 m c t.val t.isLt).2.2.2.2 = accA0 m c t := by
  have h1 : ¬t.val % 2 = 1 := by omega
  rw [outsAt0_A m c t h0 h1]
  dsimp only
  unfold accX0 accA0 asg
  exact ⟨sA0 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := scM0_0) (harg11 := Memref.isWhole_whole _) (arg12 := scM0_1) (harg12 := Memref.isWhole_whole _) (arg13 := scM0_2) (harg13 := Memref.isWhole_whole _) (x0 := iblk m c 0 t) (x1 := iblk m c 1 t) (x2 := iblk m c 2 t) (x3 := iblk m c 3 t) (x4 := iblk m c 4 t) (x5 := iblk m c 5 t) (x6 := iblk m c 6 t) (hc0 := (hcond0_0 t).mpr h0) (hc1 := fun h => h1 ((hcond0_1 t).mp h)),
    sA1 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := scM0_0) (harg11 := Memref.isWhole_whole _) (arg12 := scM0_1) (harg12 := Memref.isWhole_whole _) (arg13 := scM0_2) (harg13 := Memref.isWhole_whole _) (x0 := iblk m c 0 t) (x1 := iblk m c 1 t) (x2 := iblk m c 2 t) (x3 := iblk m c 3 t) (x4 := iblk m c 4 t) (x5 := iblk m c 5 t) (x6 := iblk m c 6 t) (hc0 := (hcond0_0 t).mpr h0) (hc1 := fun h => h1 ((hcond0_1 t).mp h)),
    sA2 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := scM0_0) (harg11 := Memref.isWhole_whole _) (arg12 := scM0_1) (harg12 := Memref.isWhole_whole _) (arg13 := scM0_2) (harg13 := Memref.isWhole_whole _) (x0 := iblk m c 0 t) (x1 := iblk m c 1 t) (x2 := iblk m c 2 t) (x3 := iblk m c 3 t) (x4 := iblk m c 4 t) (x5 := iblk m c 5 t) (x6 := iblk m c 6 t) (hc0 := (hcond0_0 t).mpr h0) (hc1 := fun h => h1 ((hcond0_1 t).mp h))⟩

/-- After an odd point: the two outputs' blocks, over what the point before left in the scratch buffers. -/
theorem outs_odd (t : Fin cfg0.N) (h1 : t.val % 2 = 1) :
    (outsAt0 m c t.val t.isLt).1
        = k0_pay5 (k0_pay4 (tileS (outsAt0 m c (t.val - 1) (Nat.lt_of_le_of_lt (Nat.sub_le _ _) t.isLt)).2.2.1 (grid0.coords t)) (tileX (iblk m c 0 t) (grid0.coords t)) (outsAt0 m c (t.val - 1) (Nat.lt_of_le_of_lt (Nat.sub_le _ _) t.isLt)).2.2.2.1)
    ∧ (outsAt0 m c t.val t.isLt).2.1
        = k0_pay6 (k0_pay3 (tileS (outsAt0 m c (t.val - 1) (Nat.lt_of_le_of_lt (Nat.sub_le _ _) t.isLt)).2.2.1 (grid0.coords t)) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.2) := by
  have h0 : ¬t.val % 2 = 0 := by omega
  rw [outsAt0_B m c t h0 h1]
  dsimp only
  exact ⟨oB7 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := scM0_0) (harg11 := Memref.isWhole_whole _) (arg12 := scM0_1) (harg12 := Memref.isWhole_whole _) (arg13 := scM0_2) (harg13 := Memref.isWhole_whole _) (x0 := iblk m c 0 t) (x1 := iblk m c 1 t) (x2 := iblk m c 2 t) (x3 := iblk m c 3 t) (x4 := iblk m c 4 t) (x5 := iblk m c 5 t) (x6 := iblk m c 6 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := fun h => h0 ((hcond0_0 t).mp h)) (hc1 := (hcond0_1 t).mpr h1),
    oB8 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := scM0_0) (harg11 := Memref.isWhole_whole _) (arg12 := scM0_1) (harg12 := Memref.isWhole_whole _) (arg13 := scM0_2) (harg13 := Memref.isWhole_whole _) (x0 := iblk m c 0 t) (x1 := iblk m c 1 t) (x2 := iblk m c 2 t) (x3 := iblk m c 3 t) (x4 := iblk m c 4 t) (x5 := iblk m c 5 t) (x6 := iblk m c 6 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := fun h => h0 ((hcond0_0 t).mp h)) (hc1 := (hcond0_1 t).mpr h1)⟩

/-- The point before an odd point `t`, as a grid point. -/
theorem prev_eq (t t' : Fin cfg0.N) (ht' : t'.val = t.val - 1) :
    (⟨t.val - 1, Nat.lt_of_le_of_lt (Nat.sub_le _ _) t.isLt⟩ : Fin cfg0.N) = t' := Fin.ext ht'.symm

/-- After graph b's second point the first output's block is (0 + tile 0's Sᵀ·x) + tile 1's Sᵀ·x, with S the
    assignment matrix of the graph's first point. -/
theorem out7_odd (t t' : Fin cfg0.N) (h1 : t.val % 2 = 1) (ht' : t'.val = t.val - 1) :
    (outsAt0 m c t.val t.isLt).1
      = k0_pay5 (k0_pay4 (tileS (asg m c t') (grid0.coords t)) (tileX (iblk m c 0 t) (grid0.coords t)) (accX0 m c t')) := by
  have h0' : t'.val % 2 = 0 := by omega
  obtain ⟨e0, e1, -⟩ := scratch_even m c t' h0'
  have := prev_eq t t' ht'
  subst this
  rw [(outs_odd m c t h1).1]
  exact congrArg k0_pay5 (by rw [e0, e1])

/-- The same for the second output: (0 + tile 0's Sᵀ·(adj·S)) + tile 1's. -/
theorem out8_odd (t t' : Fin cfg0.N) (h1 : t.val % 2 = 1) (ht' : t'.val = t.val - 1) :
    (outsAt0 m c t.val t.isLt).2.1
      = k0_pay6 (k0_pay3 (tileS (asg m c t') (grid0.coords t)) (iblk m c 6 t) (asg m c t') (accA0 m c t')) := by
  have h0' : t'.val % 2 = 0 := by omega
  obtain ⟨e0, -, e2⟩ := scratch_even m c t' h0'
  have := prev_eq t t' ht'
  subst this
  rw [(outs_odd m c t h1).2]
  exact congrArg k0_pay6 (by rw [e0, e2])

end Cert.KChain

end
-- ==== Proof.Tiles.lean ====
/-
  The two row tiles a grid point loads, read at an index.

  Point t = 2·b + i of the grid (graph b, row tile i) loads rows 1024·i … 1024·i + 1023 of the [2048,64] scratch and of
  the graph's [1,2048,128] block of x: the printed row offset is the word 1024·(second coordinate), which over the 32
  points is 1024·(t mod 2). So row r of either tile is row tileRow i r of the whole.
-/
import proofs.«111252_j38809324486702_2_alg».proof.Proof.Pieces
import proofs.«111252_j38809324486702_2_alg».proof.Proof.Spec
import Idealize.ShloMosaic.Lib.ValueIdx

noncomputable section

open Idealize.ShloMosaic Idealize.ShloMosaic.TcCoe Idealize.SL.Sem Idealize.ShloMosaic.ValueIdx

namespace Cert.KPieces

open Cert.KernelIdeal Cert.KernelIdeal.Gen

variable {F : FTy → Type} [FloatOps F]

/-- The printed offsets of the scratch tile at point t: row 1024·(t mod 2), column 0. -/
theorem off1_facts : ∀ t : Fin cfg0.N, k0_off1 (grid0.coords t) 0 = 1024 * (t.val % 2) ∧ k0_off1 (grid0.coords t) 1 = 0 :=
  (by decide +kernel : ∀ t : Fin grid0.N, _)

/-- The printed offsets of the x tile at point t: (0, 1024·(t mod 2), 0). -/
theorem off2_facts : ∀ t : Fin cfg0.N, k0_off2 (grid0.coords t) 0 = 0 ∧ k0_off2 (grid0.coords t) 1 = 1024 * (t.val % 2)
    ∧ k0_off2 (grid0.coords t) 2 = 0 :=
  (by decide +kernel : ∀ t : Fin grid0.N, _)

/-- Row r of the scratch tile at point 2·b + i is row 1024·i + r of the scratch. -/
theorem tileS_apply (P : Vec F S2048x64 .f32) (t : Fin cfg0.N) (b : Fin 16) (ii : Fin 2) (ht : t.val = 2 * b.val + ii.val)
    (r : Fin 1024) (k : Fin 64) :
    tileS P (grid0.coords t) (ix2 r k) = P (ix2 (Cert.Spec.tileRow ii r) k) := by
  unfold tileS
  show P ((Rect.unit (s := S2048x64) (k0_off1 (grid0.coords t)) S1024x64.size (k0_off1_inb (grid0.coords t))).idx (ix2 r k)) = _
  refine congrArg P (funext fun a => Fin.ext ?_)
  obtain ⟨h0, h1⟩ := off1_facts t
  have hi := ii.isLt
  match a with
  | ⟨0, _⟩ =>
    show k0_off1 (grid0.coords t) 0 + 1 * r.val = 1024 * ii.val + r.val
    rw [h0]; omega
  | ⟨1, _⟩ =>
    show k0_off1 (grid0.coords t) 1 + 1 * k.val = k.val
    rw [h1]; omega

/-- Row r of the x tile at point 2·b + i is row 1024·i + r of the block. -/
theorem tileX_apply (x0 : Vec F S1x2048x128 .f32) (t : Fin cfg0.N) (b : Fin 16) (ii : Fin 2) (ht : t.val = 2 * b.val + ii.val)
    (r : Fin 1024) (f : Fin 128) :
    tileX x0 (grid0.coords t) (ix3 (0 : Fin 1) r f) = x0 (ix3 (0 : Fin 1) (Cert.Spec.tileRow ii r) f) := by
  unfold tileX
  show x0 ((Rect.unit (s := S1x2048x128) (k0_off2 (grid0.coords t)) S1x1024x128.size (k0_off2_inb (grid0.coords t))).idx (ix3 (0 : Fin 1) r f)) = _
  refine congrArg x0 (funext fun a => Fin.ext ?_)
  obtain ⟨h0, h1, h2⟩ := off2_facts t
  have hi := ii.isLt
  match a with
  | ⟨0, _⟩ =>
    show k0_off2 (grid0.coords t) 0 + 1 * 0 = 0
    rw [h0]
  | ⟨1, _⟩ =>
    show k0_off2 (grid0.coords t) 1 + 1 * r.val = 1024 * ii.val + r.val
    rw [h1]; omega
  | ⟨2, _⟩ =>
    show k0_off2 (grid0.coords t) 2 + 1 * f.val = f.val
    rw [h2]; omega

end Cert.KPieces

end
-- ==== Proof.Blocks.lean ====
/-
  What each input block of the pooling kernel holds, entry by entry, in terms of the arrays the program was launched on.

  The kernel runs over 32 grid points, point `t = 2·b + i` for graph `b < 16` and row tile `i < 2`. At every point
  each of its seven input windows presents one rectangular block of an array. This module reads those blocks at an
  index of the ORIGINAL arguments:
    window 0 — graph `b`'s features:            block[0, n, f]  = x[b, n, f];
    window 1 — graph `b`'s mask, as a column:   block[0, n, 0]  = mask[b, n];
    window 2 — the first weight matrix, whole:   block           = W1;
    window 3 — the first bias, as a row:         block[0, j]     = b1[j];
    window 4 — the second weight matrix, whole:  block           = W2;
    window 5 — the second bias, as a row:        block[0, j]     = b2[j];
    window 6 — row tile `i` of graph `b`'s adjacency: block[0, r, mm] = adj[b, 1024·i + r, mm].
  Two facts carry every statement. First, an entry of a block sits in its array at coordinate
  (block index) × (block extent) + (coordinate inside the block) on each axis, and the block indices are `t / 2`,
  `t % 2` or `0` (decided once over the 32 points). Second, three of the arrays are not arguments but are written
  just before the kernel from one: the mask gains a trailing unit axis (a broadcast), each bias gains a leading unit
  axis (a reshape, which keeps the row-major position); reading those two operations at an index gives the argument's
  entry. Every statement holds for any float model `F`.
-/
import proofs.«111252_j38809324486702_2_alg».proof.Proof.Spec
import proofs.«111252_j38809324486702_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KBlocks

open Cert.KernelIdeal Cert.KernelIdeal.Gen Idealize.ShloMosaic Idealize.ShloMosaic.TcCoe Idealize.SL.Sem Idealize.ShloMosaic.ValueIdx

variable {F : FTy → Type} [FloatOps F] (m : (ℓ : Loc nD τ sig) → Buf (Elt F) ℓ) (c : Dev nD)

/-- The block index of each input window at grid point `t`, as a function of `t` alone: the graph `t / 2` on the
    leading axis of the per-graph windows, the row tile `t % 2` on the second axis of the adjacency window, and `0`
    on every other axis. Decided once over the 32 points. -/
theorem idx_facts : ∀ t : Fin cfg0.N,
    (win0_0.index t (0 : Fin 3) = t.val / 2 ∧ win0_0.index t (1 : Fin 3) = 0 ∧ win0_0.index t (2 : Fin 3) = 0) ∧
    (win0_1.index t (0 : Fin 3) = t.val / 2 ∧ win0_1.index t (1 : Fin 3) = 0 ∧ win0_1.index t (2 : Fin 3) = 0) ∧
    (win0_2.index t (0 : Fin 2) = 0 ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = 0 ∧ win0_5.index t (1 : Fin 2) = 0) ∧
    (win0_6.index t (0 : Fin 3) = t.val / 2 ∧ win0_6.index t (1 : Fin 3) = t.val % 2 ∧ win0_6.index t (2 : Fin 3) = 0) :=
  (by decide +kernel : ∀ t : Fin grid0.N, _)

/-- Before the kernel runs, the mask is broadcast along a new trailing unit axis: the array window 1 reads is
    `mask[b, n]` at every `(b, n, 0)`. -/
theorem V_main_v0 : (V m c main_v0 : S16x2048x1.Idx → Elt F _)
    = broadcastInDim S16x2048x1 ![0, 1] bcast_S16x2048_S16x2048x1_0_1 (m ((c : Thread nD τ).loc main_arg2)) := by
  show StableHlo.after hostOps0 (fun b => m (c, b)) (Proc.devRef .tc main_v0) = _
  after_results

/-- Before the kernel runs, the first bias is reshaped from 64 entries to a 1 × 64 row. -/
theorem V_main_v1 : (V m c main_v1 : S1x64.Idx → Elt F _)
    = shapeCast S1x64 (m ((c : Thread nD τ).loc main_arg4)) shapeCasts_S64_S1x64 := by
  show StableHlo.after hostOps0 (fun b => m (c, b)) (Proc.devRef .tc main_v1) = _
  after_results
  rfl

/-- Before the kernel runs, the second bias is reshaped from 64 entries to a 1 × 64 row. -/
theorem V_main_v2 : (V m c main_v2 : S1x64.Idx → Elt F _)
    = shapeCast S1x64 (m ((c : Thread nD τ).loc main_arg6)) shapeCasts_S64_S1x64 := by
  show StableHlo.after hostOps0 (fun b => m (c, b)) (Proc.devRef .tc main_v2) = _
  after_results
  rfl

/-- Window 0 at point `2b + i` holds graph `b`'s 2048 × 128 feature rows: entry `(0, n, f)` of the block is `x[b, n, f]`. -/
theorem iblk0_apply (t : Fin cfg0.N) (b : Fin 16) (i : Fin 2) (ht : t.val = 2 * b.val + i.val) (n : Fin 2048) (f : Fin 128) :
    (iblk m c 0 t : Vec F S1x2048x128 .f32) (ix3 (0 : Fin 1) n f) = m ((c : Thread nD τ).loc main_arg0) (ix3 b n f) := by
  have hi := (idx_facts t).1
  have hi2 := i.isLt
  unfold iblk
  rw [View.read_apply]
  show V m c main_arg0 _ = _
  rw [V_main_arg0]
  congr 1
  funext a
  apply Fin.ext
  match a with
  | ⟨0, _⟩ => show win0_0.index t 0 * 1 + 1 * 0 = b.val; rw [hi.1]; omega
  | ⟨1, _⟩ => show win0_0.index t 1 * 2048 + 1 * n.val = n.val; rw [hi.2.1]; omega
  | ⟨2, _⟩ => show win0_0.index t 2 * 128 + 1 * f.val = f.val; rw [hi.2.2]; omega

/-- Window 1 at point `2b + i` holds graph `b`'s column of mask entries: entry `(0, n, 0)` of the block is `mask[b, n]`. -/
theorem iblk1_apply (t : Fin cfg0.N) (b : Fin 16) (i : Fin 2) (ht : t.val = 2 * b.val + i.val) (n : Fin 2048) :
    (iblk m c 1 t : Vec F S1x2048x1 .f32) (ix3 (0 : Fin 1) n (0 : Fin 1)) = m ((c : Thread nD τ).loc main_arg2) (ix2 b n) := by
  have hi := (idx_facts t).2.1
  have hi2 := i.isLt
  unfold iblk
  rw [View.read_apply]
  refine (congrFun (V_main_v0 m c) _).trans ?_
  refine broadcastInDim_apply _ _ _ _ (ix2 b n) ?_
  intro a
  match a with
  | ⟨0, _⟩ => show b.val = win0_1.index t 0 * 1 + 1 * 0; rw [hi.1]; omega
  | ⟨1, _⟩ => show n.val = win0_1.index t 1 * 2048 + 1 * n.val; rw [hi.2.1]; omega

/-- Window 2 holds the whole first weight matrix at every point. -/
theorem iblk2_eq (t : Fin cfg0.N) : (iblk m c 2 t : Vec F S128x64 .f32) = m ((c : Thread nD τ).loc main_arg3) := by
  have hi := (idx_facts t).2.2.1
  funext j
  unfold iblk
  rw [View.read_apply]
  show V m c main_arg3 _ = _
  rw [V_main_arg3]
  congr 1
  funext a
  apply Fin.ext
  match a with
  | ⟨0, _⟩ => show win0_2.index t 0 * 128 + 1 * (j 0).val = (j 0).val; rw [hi.1]; omega
  | ⟨1, _⟩ => show win0_2.index t 1 * 64 + 1 * (j 1).val = (j 1).val; rw [hi.2]; omega

/-- Window 3 holds the first bias as a 1 × 64 row at every point: entry `(0, j)` of the block is `b1[j]`. -/
theorem iblk3_apply (t : Fin cfg0.N) (j : Fin 64) :
    (iblk m c 3 t : Vec F S1x64 .f32) (ix2 (0 : Fin 1) j) = m ((c : Thread nD τ).loc main_arg4) (ix1 j) := by
  have hi := (idx_facts t).2.2.2.1
  unfold iblk
  rw [View.read_apply]
  refine (congrFun (V_main_v1 m c) _).trans ?_
  refine shapeCast_apply _ _ _ (ix1 j) ?_
  rw [Shape.rowMajor_val_one, Shape.rowMajor_val_two]
  show j.val = (win0_3.index t 0 * 1 + 1 * 0) * 64 + (win0_3.index t 1 * 64 + 1 * j.val)
  rw [hi.1, hi.2]; omega

/-- Window 4 holds the whole second weight matrix at every point. -/
theorem iblk4_eq (t : Fin cfg0.N) : (iblk m c 4 t : Vec F S64x64 .f32) = m ((c : Thread nD τ).loc main_arg5) := by
  have hi := (idx_facts t).2.2.2.2.1
  funext j
  unfold iblk
  rw [View.read_apply]
  show V m c main_arg5 _ = _
  rw [V_main_arg5]
  congr 1
  funext a
  apply Fin.ext
  match a with
  | ⟨0, _⟩ => show win0_4.index t 0 * 64 + 1 * (j 0).val = (j 0).val; rw [hi.1]; omega
  | ⟨1, _⟩ => show win0_4.index t 1 * 64 + 1 * (j 1).val = (j 1).val; rw [hi.2]; omega

/-- Window 5 holds the second bias as a 1 × 64 row at every point: entry `(0, j)` of the block is `b2[j]`. -/
theorem iblk5_apply (t : Fin cfg0.N) (j : Fin 64) :
    (iblk m c 5 t : Vec F S1x64 .f32) (ix2 (0 : Fin 1) j) = m ((c : Thread nD τ).loc main_arg6) (ix1 j) := by
  have hi := (idx_facts t).2.2.2.2.2.1
  unfold iblk
  rw [View.read_apply]
  refine (congrFun (V_main_v2 m c) _).trans ?_
  refine shapeCast_apply _ _ _ (ix1 j) ?_
  rw [Shape.rowMajor_val_one, Shape.rowMajor_val_two]
  show j.val = (win0_5.index t 0 * 1 + 1 * 0) * 64 + (win0_5.index t 1 * 64 + 1 * j.val)
  rw [hi.1, hi.2]; omega
/-- Window 6 at point `2b + i` holds rows `1024·i … 1024·i + 1023` of graph `b`'s adjacency matrix: entry `(0, r, mm)`
    of the block is `adj[b, 1024·i + r, mm]`. -/
theorem iblk6_apply (t : Fin cfg0.N) (b : Fin 16) (i : Fin 2) (ht : t.val = 2 * b.val + i.val) (r : Fin 1024) (mm : Fin 2048) :
    (iblk m c 6 t : Vec F S1x1024x2048 .f32) (ix3 (0 : Fin 1) r mm) = m ((c : Thread nD τ).loc main_arg1) (ix3 b (Cert.Spec.tileRow i r) mm) := by
  have hi := (idx_facts t).2.2.2.2.2.2
  have hi2 := i.isLt
  unfold iblk
  rw [View.read_apply]
  show V m c main_arg1 _ = _
  rw [V_main_arg1]
  congr 1
  funext a
  apply Fin.ext
  match a with
  | ⟨0, _⟩ => show win0_6.index t 0 * 1 + 1 * 0 = b.val; rw [hi.1]; omega
  | ⟨1, _⟩ => show win0_6.index t 1 * 1024 + 1 * r.val = 1024 * i.val + r.val; rw [hi.2.1]; omega
  | ⟨2, _⟩ => show win0_6.index t 2 * 2048 + 1 * mm.val = mm.val; rw [hi.2.2]; omega

end Cert.KBlocks

end
-- ==== Proof.PayAcc.lean ====
/-
  The kernel's stored values, read entry by entry on the extended reals.

  At each grid step the kernel holds a block S of 1024 rows of the assignment matrix (1024 × 64), the matching block X of
  1024 rows of the features (1 × 1024 × 128), the matching block A of 1024 rows of the adjacency (1 × 1024 × 2048), and the
  whole assignment matrix T (2048 × 64). It adds to two running totals
      accX[k,f] + ∑ r, S[r,k] · X[0,r,f]                     (the product Sᵀ·X),
      accA[k,j] + ∑ r, S[r,k] · (∑ m, A[0,r,m] · T[m,j])      (the product Sᵀ·(A·T)),
  both totals starting from the zero word, which is the extended real 0; at the last step the two totals are copied out
  under a leading axis of extent one. This module states each of those six stored values at an index given by its
  coordinates.
-/
import proofs.«111252_j38809324486702_2_alg».proof.Proof.Spec
import proofs.«111252_j38809324486702_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KPay

open Cert.KernelIdeal Cert.KernelIdeal.Gen Idealize.ShloMosaic Idealize.ShloMosaic.ValueIdx

/-! ## The three products' operand indices, coordinate by coordinate -/

/-- Left operand of the product transposed on the left: its axis 0 is the contraction position. -/
theorem lhs_sx_0 (i : S64x128.Idx) (q : dot_S1024x64_S1024x128_S64x128_0_0_1_1_n_n.contr.Idx) :
    (dot_S1024x64_S1024x128_S64x128_0_0_1_1_n_n.lhsIdx i q 0).val = (q ⟨0, by decide⟩).val :=
  dot_S1024x64_S1024x128_S64x128_0_0_1_1_n_n.lhsIdx_val_of_single rfl i q
/-- Left operand of the product transposed on the left: its axis 1 is the result's row. -/
theorem lhs_sx_1 (i : S64x128.Idx) (q : dot_S1024x64_S1024x128_S64x128_0_0_1_1_n_n.contr.Idx) :
    (dot_S1024x64_S1024x128_S64x128_0_0_1_1_n_n.lhsIdx i q 1).val = (i 0).val := by
  unfold DotDims.lhsIdx
  rw [dif_neg (show ¬(1 : Fin S1024x64.rank) ∈ dot_S1024x64_S1024x128_S64x128_0_0_1_1_n_n.lhsBatch by decide), dif_pos (show (1 : Fin S1024x64.rank) ∈ dot_S1024x64_S1024x128_S64x128_0_0_1_1_n_n.lhsNonContracting by decide)]
  rfl
/-- Right operand: its axis 0 is the contraction position. -/
theorem rhs_sx_0 (i : S64x128.Idx) (q : dot_S1024x64_S1024x128_S64x128_0_0_1_1_n_n.contr.Idx) :
    (dot_S1024x64_S1024x128_S64x128_0_0_1_1_n_n.rhsIdx i q 0).val = (q ⟨0, by decide⟩).val :=
  dot_S1024x64_S1024x128_S64x128_0_0_1_1_n_n.rhsIdx_val_of_single rfl i q
/-- Right operand: its axis 1 is the result's column. -/
theorem rhs_sx_1 (i : S64x128.Idx) (q : dot_S1024x64_S1024x128_S64x128_0_0_1_1_n_n.contr.Idx) :
    (dot_S1024x64_S1024x128_S64x128_0_0_1_1_n_n.rhsIdx i q 1).val = (i 1).val := by
  unfold DotDims.rhsIdx
  rw [dif_neg (show ¬(1 : Fin S1024x128.rank) ∈ dot_S1024x64_S1024x128_S64x128_0_0_1_1_n_n.rhsBatch by decide), dif_pos (show (1 : Fin S1024x128.rank) ∈ dot_S1024x64_S1024x128_S64x128_0_0_1_1_n_n.rhsNonContracting by decide)]
  rfl

/-- Left operand of the product transposed on the left: its axis 0 is the contraction position. -/
theorem lhs_st_0 (i : S64x64.Idx) (q : dot_S1024x64_S1024x64_S64x64_0_0_1_1_n_n.contr.Idx) :
    (dot_S1024x64_S1024x64_S64x64_0_0_1_1_n_n.lhsIdx i q 0).val = (q ⟨0, by decide⟩).val :=
  dot_S1024x64_S1024x64_S64x64_0_0_1_1_n_n.lhsIdx_val_of_single rfl i q
/-- Left operand of the product transposed on the left: its axis 1 is the result's row. -/
theorem lhs_st_1 (i : S64x64.Idx) (q : dot_S1024x64_S1024x64_S64x64_0_0_1_1_n_n.contr.Idx) :
    (dot_S1024x64_S1024x64_S64x64_0_0_1_1_n_n.lhsIdx i q 1).val = (i 0).val := by
  unfold DotDims.lhsIdx
  rw [dif_neg (show ¬(1 : Fin S1024x64.rank) ∈ dot_S1024x64_S1024x64_S64x64_0_0_1_1_n_n.lhsBatch by decide), dif_pos (show (1 : Fin S1024x64.rank) ∈ dot_S1024x64_S1024x64_S64x64_0_0_1_1_n_n.lhsNonContracting by decide)]
  rfl
/-- Right operand: its axis 0 is the contraction position. -/
theorem rhs_st_0 (i : S64x64.Idx) (q : dot_S1024x64_S1024x64_S64x64_0_0_1_1_n_n.contr.Idx) :
    (dot_S1024x64_S1024x64_S64x64_0_0_1_1_n_n.rhsIdx i q 0).val = (q ⟨0, by decide⟩).val :=
  dot_S1024x64_S1024x64_S64x64_0_0_1_1_n_n.rhsIdx_val_of_single rfl i q
/-- Right operand: its axis 1 is the result's column. -/
theorem rhs_st_1 (i : S64x64.Idx) (q : dot_S1024x64_S1024x64_S64x64_0_0_1_1_n_n.contr.Idx) :
    (dot_S1024x64_S1024x64_S64x64_0_0_1_1_n_n.rhsIdx i q 1).val = (i 1).val := by
  unfold DotDims.rhsIdx
  rw [dif_neg (show ¬(1 : Fin S1024x64.rank) ∈ dot_S1024x64_S1024x64_S64x64_0_0_1_1_n_n.rhsBatch by decide), dif_pos (show (1 : Fin S1024x64.rank) ∈ dot_S1024x64_S1024x64_S64x64_0_0_1_1_n_n.rhsNonContracting by decide)]
  rfl

/-- Left operand of the ordinary product: its axis 0 is the result's row. -/
theorem lhs_at_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
/-- Left operand of the ordinary product: its axis 1 is the contraction position. -/
theorem lhs_at_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
/-- Right operand: its axis 0 is the contraction position. -/
theorem rhs_at_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
/-- Right operand: its axis 1 is the result's column. -/
theorem rhs_at_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-! ## The three products at an index -/

/-- (Sᵀ·M)[k,f] = ∑ r, S[r,k] · M[r,f], for S of 1024 × 64 and M of 1024 × 128, accumulated from zero. -/
theorem tmulX_apply (a : FVec Ideal S1024x64 .f32) (b : FVec Ideal S1024x128 .f32) (k : Fin 64) (f : Fin 128) :
    matmul dot_S1024x64_S1024x128_S64x128_0_0_1_1_n_n (some .fp32) a b (constant (F := Ideal) S64x128 .f32 0x00000000#32) (ix2 k f)
      = ∑ r : Fin 1024, a (ix2 r k) * b (ix2 r f) := by
  simp only [matmul]
  rw [Ideal.matmul_constant_zero_apply,
    ← Equiv.sum_comp (contrEquiv1 dot_S1024x64_S1024x128_S64x128_0_0_1_1_n_n 1024 rfl rfl).symm]
  refine Finset.sum_congr rfl fun r _ => ?_
  have hk := contrEquiv1_symm_val dot_S1024x64_S1024x128_S64x128_0_0_1_1_n_n 1024 rfl rfl r
  have el : dot_S1024x64_S1024x128_S64x128_0_0_1_1_n_n.lhsIdx (ix2 k f) ((contrEquiv1 dot_S1024x64_S1024x128_S64x128_0_0_1_1_n_n 1024 rfl rfl).symm r) = ix2 r k :=
    funext fun c => Fin.ext (by
      match c with
      | ⟨0, _⟩ => exact (lhs_sx_0 _ _).trans hk
      | ⟨1, _⟩ => exact lhs_sx_1 _ _)
  have er : dot_S1024x64_S1024x128_S64x128_0_0_1_1_n_n.rhsIdx (ix2 k f) ((contrEquiv1 dot_S1024x64_S1024x128_S64x128_0_0_1_1_n_n 1024 rfl rfl).symm r) = ix2 r f :=
    funext fun c => Fin.ext (by
      match c with
      | ⟨0, _⟩ => exact (rhs_sx_0 _ _).trans hk
      | ⟨1, _⟩ => exact rhs_sx_1 _ _)
  rw [el, er]

/-- (Sᵀ·M)[k,j] = ∑ r, S[r,k] · M[r,j], for S and M of 1024 × 64, accumulated from zero. -/
theorem tmulT_apply (a : FVec Ideal S1024x64 .f32) (b : FVec Ideal S1024x64 .f32) (k : Fin 64) (j : Fin 64) :
    matmul dot_S1024x64_S1024x64_S64x64_0_0_1_1_n_n (some .fp32) a b (constant (F := Ideal) S64x64 .f32 0x00000000#32) (ix2 k j)
      = ∑ r : Fin 1024, a (ix2 r k) * b (ix2 r j) := by
  simp only [matmul]
  rw [Ideal.matmul_constant_zero_apply,
    ← Equiv.sum_comp (contrEquiv1 dot_S1024x64_S1024x64_S64x64_0_0_1_1_n_n 1024 rfl rfl).symm]
  refine Finset.sum_congr rfl fun r _ => ?_
  have hk := contrEquiv1_symm_val dot_S1024x64_S1024x64_S64x64_0_0_1_1_n_n 1024 rfl rfl r
  have el : dot_S1024x64_S1024x64_S64x64_0_0_1_1_n_n.lhsIdx (ix2 k j) ((contrEquiv1 dot_S1024x64_S1024x64_S64x64_0_0_1_1_n_n 1024 rfl rfl).symm r) = ix2 r k :=
    funext fun c => Fin.ext (by
      match c with
      | ⟨0, _⟩ => exact (lhs_st_0 _ _).trans hk
      | ⟨1, _⟩ => exact lhs_st_1 _ _)
  have er : dot_S1024x64_S1024x64_S64x64_0_0_1_1_n_n.rhsIdx (ix2 k j) ((contrEquiv1 dot_S1024x64_S1024x64_S64x64_0_0_1_1_n_n 1024 rfl rfl).symm r) = ix2 r j :=
    funext fun c => Fin.ext (by
      match c with
      | ⟨0, _⟩ => exact (rhs_st_0 _ _).trans hk
      | ⟨1, _⟩ => exact rhs_st_1 _ _)
  rw [el, er]

/-- (A·T)[n,j] = ∑ m, A[n,m] · T[m,j], for A of 1024 × 2048 and T of 2048 × 64, accumulated from zero. -/
theorem mulAT_apply (a : FVec Ideal S1024x2048 .f32) (b : FVec Ideal S2048x64 .f32) (n : Fin 1024) (j : Fin 64) :
    matmul dot_S1024x2048_S2048x64_S1024x64_1_0_0_1_n_n (some .fp32) a b (constant (F := Ideal) S1024x64 .f32 0x00000000#32) (ix2 n j)
      = ∑ r : Fin 2048, a (ix2 n r) * b (ix2 r j) := by
  simp only [matmul]
  rw [Ideal.matmul_constant_zero_apply,
    ← Equiv.sum_comp (contrEquiv1 dot_S1024x2048_S2048x64_S1024x64_1_0_0_1_n_n 2048 rfl rfl).symm]
  refine Finset.sum_congr rfl fun r _ => ?_
  have hk := contrEquiv1_symm_val dot_S1024x2048_S2048x64_S1024x64_1_0_0_1_n_n 2048 rfl rfl r
  have el : dot_S1024x2048_S2048x64_S1024x64_1_0_0_1_n_n.lhsIdx (ix2 n j) ((contrEquiv1 dot_S1024x2048_S2048x64_S1024x64_1_0_0_1_n_n 2048 rfl rfl).symm r) = ix2 n r :=
    funext fun c => Fin.ext (by
      match c with
      | ⟨0, _⟩ => exact lhs_at_0 _ _
      | ⟨1, _⟩ => exact (lhs_at_1 _ _).trans hk)
  have er : dot_S1024x2048_S2048x64_S1024x64_1_0_0_1_n_n.rhsIdx (ix2 n j) ((contrEquiv1 dot_S1024x2048_S2048x64_S1024x64_1_0_0_1_n_n 2048 rfl rfl).symm r) = ix2 r j :=
    funext fun c => Fin.ext (by
      match c with
      | ⟨0, _⟩ => exact (rhs_at_0 _ _).trans hk
      | ⟨1, _⟩ => exact rhs_at_1 _ _)
  rw [el, er]

/-! ## The stored values -/

/-- The feature total starts at 0 everywhere. -/
theorem pay1_apply (k : Fin 64) (f : Fin 128) : k0_pay1 (F := Ideal) (ix2 k f) = 0 := by
  unfold k0_pay1
  rw [shapeCast_self, broadcast_apply]
  exact Ideal.ofBits_zero_f32

/-- The adjacency total starts at 0 everywhere. -/
theorem pay2_apply (k j : Fin 64) : k0_pay2 (F := Ideal) (ix2 k j) = 0 := by
  unfold k0_pay2
  rw [shapeCast_self, broadcast_apply]
  exact Ideal.ofBits_zero_f32

/-- One step of the feature total: acc[k,f] + ∑ r, S[r,k] · X[0,r,f]. -/
theorem pay4_apply (v6 : Vec Ideal S1024x64 .f32) (v8 : Vec Ideal S1x1024x128 .f32) (v20 : Vec Ideal S64x128 .f32)
    (k : Fin 64) (f : Fin 128) :
    k0_pay4 (F := Ideal) v6 v8 v20 (ix2 k f)
      = v20 (ix2 k f) + ∑ r : Fin 1024, v6 (ix2 r k) * v8 (ix3 (0 : Fin 1) r f) := by
  unfold k0_pay4
  rw [shapeCast_self, addf_apply, tmulX_apply]
  refine congrArg (v20 (ix2 k f) + ·) (Finset.sum_congr rfl fun r _ => ?_)
  rw [shapeCast_1ab_ab_apply]

/-- One step of the adjacency total: acc[k,j] + ∑ r, S[r,k] · (∑ m, A[0,r,m] · T[m,j]). -/
theorem pay3_apply (v6 : Vec Ideal S1024x64 .f32) (v10 : Vec Ideal S1x1024x2048 .f32) (v12 : Vec Ideal S2048x64 .f32)
    (v14 : Vec Ideal S64x64 .f32) (k j : Fin 64) :
    k0_pay3 (F := Ideal) v6 v10 v12 v14 (ix2 k j)
      = v14 (ix2 k j) + ∑ r : Fin 1024, v6 (ix2 r k) * ∑ mm : Fin 2048, v10 (ix3 (0 : Fin 1) r mm) * v12 (ix2 mm j) := by
  unfold k0_pay3
  rw [shapeCast_self, addf_apply, tmulT_apply]
  refine congrArg (v14 (ix2 k j) + ·) (Finset.sum_congr rfl fun r _ => ?_)
  rw [mulAT_apply]
  refine congrArg (v6 (ix2 r k) * ·) (Finset.sum_congr rfl fun mm _ => ?_)
  rw [shapeCast_1ab_ab_apply]

/-- The feature total copied out under a leading axis of extent one. -/
theorem pay5_apply {F : FTy → Type} [FloatOps F] (v : Vec F S64x128 .f32) (k : Fin 64) (f : Fin 128) :
    k0_pay5 v (ix3 (0 : Fin 1) k f) = v (ix2 k f) := by
  unfold k0_pay5
  exact shapeCast_ab_1ab_apply v _ (0 : Fin 1) k f

/-- The adjacency total copied out under a leading axis of extent one. -/
theorem pay6_apply {F : FTy → Type} [FloatOps F] (v : Vec F S64x64 .f32) (k j : Fin 64) :
    k0_pay6 v (ix3 (0 : Fin 1) k j) = v (ix2 k j) := by
  unfold k0_pay6
  exact shapeCast_ab_1ab_apply v _ (0 : Fin 1) k j

end Cert.KPay

end
-- ==== Proof.PayAssign.lean ====
/-
  The value the kernel stores into its [2048,64] scratch at the first point of each graph, read at one entry.

  That value is one pure term of the six blocks the kernel loads: the node features x [1,2048,128], the two weight
  matrices W1 [128,64] and W2 [64,64], the two biases [1,64], and the mask column [1,2048,1]. This module shows that
  its entry in row n and column k is the specification's row of the assignment matrix for node n,
      softmax_k ( relu (x[n,·]·W1 + b1)·W2 + b2 + (−1e9)·(1 − mask[n]) ),
  the softmax taken with the row's maximum subtracted. The argument goes one operation at a time: each of the two
  matrix products is a finite sum over its contracted axis; a bias row and a per-row column are read through their
  broadcasts; the lane maximum is the fold of max over the 64 columns of the row and the lane sum is the sum over them.
-/
import proofs.«111252_j38809324486702_2_alg».proof.Proof.Spec
import proofs.«111252_j38809324486702_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KPay

open Cert.KernelIdeal Cert.KernelIdeal.Gen Idealize.ShloMosaic Idealize.ShloMosaic.ValueIdx

/-! ## A column: a vector viewed as one, and one broadcast along the rows -/

/-- A vector of length a viewed as a column [a,1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a,1] broadcast to [a,b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of 2048 row values, viewed as a column and broadcast along the 64 lanes, reads at (n, k) the value of row n. -/
theorem column_of_rows_apply (r : FVec Ideal S2048 .f32) (h1 : S2048.ShapeCasts S2048x1)
    (h2 : S2048x1.Broadcasts S2048x64) (n : Fin 2048) (k : Fin 64) :
    broadcastTo S2048x64 (shapeCast S2048x1 r h1) h2 (ix2 n k) = r (ix1 n) :=
  (broadcastTo_a1_ab_apply _ h2 n k).trans (shapeCast_a_a1_apply r h1 n 0)

/-! ## The two lane reductions of a [2048,64] array, at row n -/

/-- The index of row n with the lane k' put back is (n, k'). -/
theorem lift_row (h : S2048x64.Reduces [1] S2048) (n : Fin 2048) (k' : Fin 64) :
    h.lift (ix1 n) k' = ix2 n k' :=
  funext fun c => Fin.ext (by
    match c with
    | ⟨0, _⟩ => rfl
    | ⟨1, _⟩ => rfl)

/-- The lane maximum from the word −∞, at row n: the largest of the row's 64 entries. -/
theorem laneMax_apply (l : FVec Ideal S2048x64 .f32) (h : S2048x64.Reduces [1] S2048) (hφ : FKind.Formats .f32)
    (hacc : (0xFF800000#32 : BitVec 32) = FKind.maximumf.neutral .f32 hφ) (n : Fin 2048) :
    multiReduction .maximumf [1] S2048 l 0xFF800000#32 h hφ hacc (ix1 n)
      = Cert.Spec.rowMax (fun k' : Fin 64 => l (ix2 n k')) := by
  refine (Ideal.multiReduction_maximumf_single l _ h hφ hacc (ix1 n)).trans ?_
  have e : (l ∘ h.lift (ix1 n)) = fun k' : Fin 64 => l (ix2 n k') :=
    funext fun k' => congrArg l (lift_row h n k')
  rw [e]
  rfl

/-- The lane sum from the zero word, at row n: the sum of the row's 64 entries. -/
theorem laneSum_apply (l : FVec Ideal S2048x64 .f32) (h : S2048x64.Reduces [1] S2048) (hφ : FKind.Formats .f32)
    (hacc : (0x00000000#32 : BitVec 32) = FKind.add.neutral .f32 hφ) (n : Fin 2048) :
    multiReduction .add [1] S2048 l 0x00000000#32 h hφ hacc (ix1 n) = ∑ k' : Fin 64, l (ix2 n k') := by
  refine (Ideal.multiReduction_add_single l _ h hφ hacc (ix1 n)).trans ?_
  exact Finset.sum_congr rfl fun k' _ => congrArg l (lift_row h n k')

/-! ## The two matrix products, at row n and a column -/

/-- The dimension numbers of the first product, [2048,128] by [128,64]. -/
abbrev D1 : DotDims S2048x128 S128x64 S2048x64 := dot_S2048x128_S128x64_S2048x64_1_0_0_1_n_n
/-- The dimension numbers of the second product, [2048,64] by [64,64]. -/
abbrev D2 : DotDims S2048x64 S64x64 S2048x64 := dot_S2048x64_S64x64_S2048x64_1_0_0_1_n_n

/-- The first product's left operand is read in the result's row … -/
theorem lhs1_row (i : S2048x64.Idx) (q : D1.contr.Idx) : (D1.lhsIdx i q 0).val = (i 0).val := by
  unfold DotDims.lhsIdx
  rw [dif_neg (show ¬(0 : Fin S2048x128.rank) ∈ D1.lhsBatch by decide),
    dif_pos (show (0 : Fin S2048x128.rank) ∈ D1.lhsNonContracting by decide)]
  rfl
/-- … and its right operand in the result's column. -/
theorem rhs1_col (i : S2048x64.Idx) (q : D1.contr.Idx) : (D1.rhsIdx i q 1).val = (i 1).val := by
  unfold DotDims.rhsIdx
  rw [dif_neg (show ¬(1 : Fin S128x64.rank) ∈ D1.rhsBatch by decide),
    dif_pos (show (1 : Fin S128x64.rank) ∈ D1.rhsNonContracting by decide)]
  rfl

/-- The first product into the zero accumulator, at (n, c): the sum over the 128 features f of A[n,f]·B[f,c]. -/
theorem matmul1_apply (A : FVec Ideal S2048x128 .f32) (B : FVec Ideal S128x64 .f32) (n : Fin 2048) (c : Fin 64) :
    matmul D1 (some .fp32) A B (constant (F := Ideal) S2048x64 .f32 0x00000000#32) (ix2 n c)
      = ∑ f : Fin 128, A (ix2 n f) * B (ix2 f c) := by
  simp only [matmul]
  rw [Ideal.matmul_constant_zero_apply, ← Equiv.sum_comp (contrEquiv1 D1 128 rfl rfl).symm]
  refine Finset.sum_congr rfl fun f _ => ?_
  have hk := contrEquiv1_symm_val D1 128 rfl rfl f
  have el : D1.lhsIdx (ix2 n c) ((contrEquiv1 D1 128 rfl rfl).symm f) = ix2 n f := funext fun a => Fin.ext (by
    match a with
    | ⟨0, _⟩ => exact lhs1_row _ _
    | ⟨1, _⟩ => exact (D1.lhsIdx_val_of_single rfl _ _).trans hk)
  have er : D1.rhsIdx (ix2 n c) ((contrEquiv1 D1 128 rfl rfl).symm f) = ix2 f c := funext fun a => Fin.ext (by
    match a with
    | ⟨0, _⟩ => exact (D1.rhsIdx_val_of_single rfl _ _).trans hk
    | ⟨1, _⟩ => exact rhs1_col _ _)
  rw [el, er]

/-- The second product's left operand is read in the result's row … -/
theorem lhs2_row (i : S2048x64.Idx) (q : D2.contr.Idx) : (D2.lhsIdx i q 0).val = (i 0).val := by
  unfold DotDims.lhsIdx
  rw [dif_neg (show ¬(0 : Fin S2048x64.rank) ∈ D2.lhsBatch by decide),
    dif_pos (show (0 : Fin S2048x64.rank) ∈ D2.lhsNonContracting by decide)]
  rfl
/-- … and its right operand in the result's column. -/
theorem rhs2_col (i : S2048x64.Idx) (q : D2.contr.Idx) : (D2.rhsIdx i q 1).val = (i 1).val := by
  unfold DotDims.rhsIdx
  rw [dif_neg (show ¬(1 : Fin S64x64.rank) ∈ D2.rhsBatch by decide),
    dif_pos (show (1 : Fin S64x64.rank) ∈ D2.rhsNonContracting by decide)]
  rfl

/-- The second product into the zero accumulator, at (n, c): the sum over the 64 hidden units j of A[n,j]·B[j,c]. -/
theorem matmul2_apply (A : FVec Ideal S2048x64 .f32) (B : FVec Ideal S64x64 .f32) (n : Fin 2048) (c : Fin 64) :
    matmul D2 (some .fp32) A B (constant (F := Ideal) S2048x64 .f32 0x00000000#32) (ix2 n c)
      = ∑ j : Fin 64, A (ix2 n j) * B (ix2 j c) := by
  simp only [matmul]
  rw [Ideal.matmul_constant_zero_apply, ← Equiv.sum_comp (contrEquiv1 D2 64 rfl rfl).symm]
  refine Finset.sum_congr rfl fun j _ => ?_
  have hk := contrEquiv1_symm_val D2 64 rfl rfl j
  have el : D2.lhsIdx (ix2 n c) ((contrEquiv1 D2 64 rfl rfl).symm j) = ix2 n j := funext fun a => Fin.ext (by
    match a with
    | ⟨0, _⟩ => exact lhs2_row _ _
    | ⟨1, _⟩ => exact (D2.lhsIdx_val_of_single rfl _ _).trans hk)
  have er : D2.rhsIdx (ix2 n c) ((contrEquiv1 D2 64 rfl rfl).symm j) = ix2 j c := funext fun a => Fin.ext (by
    match a with
    | ⟨0, _⟩ => exact (D2.rhsIdx_val_of_single rfl _ _).trans hk
    | ⟨1, _⟩ => exact rhs2_col _ _)
  rw [el, er]

/-! ## The payload in stages: the hidden layer, the masked scores, the softmax of a score array -/

/-- The hidden layer relu (x·W1 + b1), as an array [2048,64]. -/
def hidden (x : FVec Ideal S1x2048x128 .f32) (W1 : FVec Ideal S128x64 .f32) (b1 : FVec Ideal S1x64 .f32) :
    FVec Ideal S2048x64 .f32 :=
  maximumf
    (addf
      (matmul D1 (some .fp32) (shapeCast S2048x128 x shapeCasts_S1x2048x128_S2048x128) W1
        (constant S2048x64 .f32 0x00000000#32))
      (broadcastTo S2048x64 (shapeCast S1x64 b1 shapeCasts_S1x64_S1x64) broadcasts_S1x64_S2048x64))
    (broadcast S2048x64 (Scalar.ofBits .f32 0x00000000#32))

/-- The masked scores hidden·W2 + b2 + (−1e9)·(1 − mask), as an array [2048,64]. -/
def scores (x : FVec Ideal S1x2048x128 .f32) (W1 : FVec Ideal S128x64 .f32) (b1 : FVec Ideal S1x64 .f32)
    (W2 : FVec Ideal S64x64 .f32) (b2 : FVec Ideal S1x64 .f32) (mask : FVec Ideal S1x2048x1 .f32) :
    FVec Ideal S2048x64 .f32 :=
  addf
    (addf
      (matmul D2 (some .fp32) (hidden x W1 b1) W2 (constant S2048x64 .f32 0x00000000#32))
      (broadcastTo S2048x64 (shapeCast S1x64 b2 shapeCasts_S1x64_S1x64) broadcasts_S1x64_S2048x64))
    (broadcastTo S2048x64
      (mulf (broadcast S2048x1 (Scalar.ofBits .f32 0xCE6E6B28#32))
        (subf (broadcast S2048x1 (Scalar.ofBits .f32 0x3F800000#32))
          (shapeCast S2048x1 mask shapeCasts_S1x2048x1_S2048x1)))
      broadcasts_S2048x1_S2048x64)

/-- The exponentials exp (l − rowwise max l) of a score array l. -/
def expShifted (l : FVec Ideal S2048x64 .f32) : FVec Ideal S2048x64 .f32 :=
  exp (subf l
    (broadcastTo S2048x64
      (shapeCast S2048x1
        (multiReduction .maximumf [1] S2048 l 0xFF800000#32 reduces_S2048x64_S2048 (.inl rfl) rfl)
        shapeCasts_S2048_S2048x1)
      broadcasts_S2048x1_S2048x64))

/-- The rowwise softmax of a score array l: its shifted exponentials over their row sums. -/
def softmaxOf (l : FVec Ideal S2048x64 .f32) : FVec Ideal S2048x64 .f32 :=
  shapeCast S2048x64
    (divf (expShifted l)
      (broadcastTo S2048x64
        (shapeCast S2048x1
          (multiReduction .add [1] S2048 (expShifted l) 0x00000000#32 reduces_S2048x64_S2048 (.inl rfl) rfl)
          shapeCasts_S2048_S2048x1)
        broadcasts_S2048x1_S2048x64))
    shapeCasts_S2048x64_S2048x64

/-- The stored value is the rowwise softmax of the masked scores. -/
theorem pay7_eq (v29 : Vec Ideal S1x2048x128 .f32) (v31 : Vec Ideal S128x64 .f32) (v33 : Vec Ideal S1x64 .f32)
    (v39 : Vec Ideal S64x64 .f32) (v41 : Vec Ideal S1x64 .f32) (v45 : Vec Ideal S1x2048x1 .f32) :
    k0_pay7 (F := Ideal) v29 v31 v33 v39 v41 v45 = softmaxOf (scores v29 v31 v33 v39 v41 v45) := rfl

/-! ## Each stage read at an entry -/

/-- The hidden layer at node n and unit j: max (∑ f, x[n,f]·W1[f,j] + b1[j]) 0. -/
theorem hidden_apply (x : FVec Ideal S1x2048x128 .f32) (W1 : FVec Ideal S128x64 .f32) (b1 : FVec Ideal S1x64 .f32)
    (n : Fin 2048) (j : Fin 64) :
    hidden x W1 b1 (ix2 n j)
      = max ((∑ f : Fin 128, x (ix3 (0 : Fin 1) n f) * W1 (ix2 f j)) + b1 (ix2 (0 : Fin 1) j)) 0 := by
  unfold hidden
  rw [maximumf_apply, addf_apply, matmul1_apply, broadcastTo_1b_ab_apply, shapeCast_self, broadcast_apply]
  show max ((∑ f : Fin 128, shapeCast S2048x128 x shapeCasts_S1x2048x128_S2048x128 (ix2 n f) * W1 (ix2 f j))
    + b1 (ix2 (0 : Fin 1) j)) (Ideal.ofBits .f32 0x00000000#32) = _
  rw [Ideal.ofBits_zero_f32]
  simp only [shapeCast_1ab_ab_apply]

/-- The masked scores at node n and cluster k are the specification's scores of that node. -/
theorem scores_apply (x : FVec Ideal S1x2048x128 .f32) (W1 : FVec Ideal S128x64 .f32) (b1 : FVec Ideal S1x64 .f32)
    (W2 : FVec Ideal S64x64 .f32) (b2 : FVec Ideal S1x64 .f32) (mask : FVec Ideal S1x2048x1 .f32)
    (n : Fin 2048) (k : Fin 64) :
    scores x W1 b1 W2 b2 mask (ix2 n k)
      = Cert.Spec.rowLogit W1 (fun j => b1 (ix2 (0 : Fin 1) j)) W2 (fun j => b2 (ix2 (0 : Fin 1) j))
          (fun f => x (ix3 (0 : Fin 1) n f)) (mask (ix3 (0 : Fin 1) n (0 : Fin 1))) k := by
  unfold scores Cert.Spec.rowLogit
  rw [addf_apply, addf_apply, matmul2_apply, broadcastTo_1b_ab_apply, shapeCast_self, broadcastTo_a1_ab_apply,
    mulf_apply, subf_apply, broadcast_apply, broadcast_apply, shapeCast_1ab_ab_apply]
  simp only [hidden_apply]
  rfl

/-- A shifted exponential at (n, k'): exp (l[n,k'] − the largest entry of row n). -/
theorem expShifted_apply (l : FVec Ideal S2048x64 .f32) (n : Fin 2048) (k' : Fin 64) :
    expShifted l (ix2 n k')
      = Ideal.exp (l (ix2 n k') - Cert.Spec.rowMax (fun k'' : Fin 64 => l (ix2 n k''))) :=
  congrArg (fun m => Ideal.exp (l (ix2 n k') - m))
    ((column_of_rows_apply _ shapeCasts_S2048_S2048x1 broadcasts_S2048x1_S2048x64 n k').trans
      (laneMax_apply l reduces_S2048x64_S2048 (.inl rfl) rfl n))

/-- The rowwise softmax of l at (n, k) is the specification's softmax of row n at k. -/
theorem softmaxOf_apply (l : FVec Ideal S2048x64 .f32) (n : Fin 2048) (k : Fin 64) :
    softmaxOf l (ix2 n k) = Cert.Spec.softmaxRow (fun k' : Fin 64 => l (ix2 n k')) k := by
  unfold softmaxOf Cert.Spec.softmaxRow
  refine (congrFun (shapeCast_self _ _) (ix2 n k)).trans ?_
  refine (divf_apply _ _ _).trans ?_
  refine congrArg₂ Ideal.div (expShifted_apply l n k) ?_
  refine (column_of_rows_apply _ _ _ n k).trans ?_
  refine (laneSum_apply (expShifted l) _ _ _ n).trans ?_
  exact Finset.sum_congr rfl fun k' _ => expShifted_apply l n k'

/-! ## The payload at an entry -/

/-- The value stored into the scratch, at node n and cluster k, is node n's row of the assignment matrix at k. -/
theorem pay7_apply (v29 : Vec Ideal S1x2048x128 .f32) (v31 : Vec Ideal S128x64 .f32) (v33 : Vec Ideal S1x64 .f32)
    (v39 : Vec Ideal S64x64 .f32) (v41 : Vec Ideal S1x64 .f32) (v45 : Vec Ideal S1x2048x1 .f32)
    (n : Fin 2048) (k : Fin 64) :
    k0_pay7 (F := Ideal) v29 v31 v33 v39 v41 v45 (ix2 n k)
      = Cert.Spec.rowAssign v31 (fun j => v33 (ix2 (0 : Fin 1) j)) v39 (fun j => v41 (ix2 (0 : Fin 1) j))
          (fun f => v29 (ix3 (0 : Fin 1) n f)) (v45 (ix3 (0 : Fin 1) n (0 : Fin 1))) k :=
  (congrFun (pay7_eq v29 v31 v33 v39 v41 v45) (ix2 n k)).trans <|
    (softmaxOf_apply _ n k).trans <|
      congrArg (fun l => Cert.Spec.softmaxRow l k)
        (funext fun k' => scores_apply v29 v31 v33 v39 v41 v45 n k')

end Cert.KPay

end
-- ==== Proof.TileSum.lean ====
/-
  A sum over 2048 rows is the sum over the first block of 1024 rows plus the sum over the second block of 1024 rows.
  Row r of block i is row 1024·i + r of the whole; the statement holds in every commutative additive monoid.
-/
import proofs.«111252_j38809324486702_2_alg».proof.Proof.Spec
import Mathlib.Algebra.BigOperators.Fin

noncomputable section

open scoped BigOperators

namespace Cert.TileSum

/-- Row r of the first block is row r of the whole, read as an element of Fin (1024 + 1024). -/
theorem tileRow_zero_eq (r : Fin 1024) : Cert.Spec.tileRow 0 r = (Fin.castAdd 1024 r : Fin (1024 + 1024)) := by
  apply Fin.ext
  simp [Cert.Spec.tileRow_val]

/-- Row r of the second block is row 1024 + r of the whole, read as an element of Fin (1024 + 1024). -/
theorem tileRow_one_eq (r : Fin 1024) : Cert.Spec.tileRow 1 r = (Fin.natAdd 1024 r : Fin (1024 + 1024)) := by
  apply Fin.ext
  simp [Cert.Spec.tileRow_val]
  omega

/-- ∑_{n < 2048} g n = ∑_{r < 1024} g r + ∑_{r < 1024} g (1024 + r). -/
theorem sum_tiles {M : Type*} [AddCommMonoid M] (g : Fin 2048 → M) :
    ∑ n : Fin 2048, g n
      = (∑ r : Fin 1024, g (Cert.Spec.tileRow 0 r)) + ∑ r : Fin 1024, g (Cert.Spec.tileRow 1 r) := by
  have h := Fin.sum_univ_add (a := 1024) (b := 1024) (fun i : Fin (1024 + 1024) => g i)
  simp only [tileRow_zero_eq, tileRow_one_eq]
  exact h

end Cert.TileSum

end
-- ==== Proof.ValueAt.lean ====
/-
  The two output blocks a graph's second grid point writes back, read at an index, on the extended reals.

  With S the assignment matrix of graph b (the softmax payload of the graph's blocks, which is the specification's
  S[b,·,·] of the argument arrays), the block written to the first output at point 2·b + 1 holds at (k, f)
      (0 + ∑ r, S[b, r, k]·x[b, r, f]) + ∑ r, S[b, 1024 + r, k]·x[b, 1024 + r, f],
  the two sums over the two tiles of 1024 rows; that is ∑ n, S[b,n,k]·x[b,n,f] over all 2048 rows, by commutativity
  and associativity of + alone. The second output likewise with x[b,n,f] replaced by ∑ m, adj[b,n,m]·S[b,m,j].
-/
import proofs.«111252_j38809324486702_2_alg».proof.Proof.Chain
import proofs.«111252_j38809324486702_2_alg».proof.Proof.Tiles
import proofs.«111252_j38809324486702_2_alg».proof.Proof.Blocks
import proofs.«111252_j38809324486702_2_alg».proof.Proof.PayAcc
import proofs.«111252_j38809324486702_2_alg».proof.Proof.PayAssign
import proofs.«111252_j38809324486702_2_alg».proof.Proof.TileSum

set_option maxRecDepth 16384

noncomputable section

open scoped BigOperators
open Idealize.ShloMosaic Idealize.ShloMosaic.TcCoe Idealize.SL.Sem Idealize.ShloMosaic.ValueIdx

namespace Cert.KValue

open Cert.KernelIdeal Cert.KernelIdeal.Gen Cert.KPieces Cert.KChain Cert.KBlocks Cert.KPay Cert.Spec

variable (m : (ℓ : Loc nD τ sig) → Buf (Elt Ideal) ℓ) (c : Dev nD)

/-- The softmax payload of the blocks of a point of graph b is the specification's S[b,·,·] of the argument arrays. -/
theorem asg_apply (t : Fin cfg0.N) (b : Fin 16) (ii : Fin 2) (ht : t.val = 2 * b.val + ii.val) (n : Fin 2048) (k : Fin 64) :
    asg m c t (ix2 n k) = assign (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) b n k := by
  unfold asg
  refine (pay7_apply (iblk m c 0 t) (iblk m c 2 t) (iblk m c 3 t) (iblk m c 4 t) (iblk m c 5 t) (iblk m c 1 t) n k).trans ?_
  unfold assign
  have e0 : (fun f => (iblk m c 0 t : Vec Ideal S1x2048x128 .f32) (ix3 (0 : Fin 1) n f))
      = fun f => m ((c : Thread nD τ).loc main_arg0) (ix3 b n f) := funext fun f => iblk0_apply m c t b ii ht n f
  have e1 := iblk1_apply m c t b ii ht n
  have e3 : (fun j => (iblk m c 3 t : Vec Ideal S1x64 .f32) (ix2 (0 : Fin 1) j))
      = fun j => m ((c : Thread nD τ).loc main_arg4) (ix1 j) := funext fun j => iblk3_apply m c t j
  have e5 : (fun j => (iblk m c 5 t : Vec Ideal S1x64 .f32) (ix2 (0 : Fin 1) j))
      = fun j => m ((c : Thread nD τ).loc main_arg6) (ix1 j) := funext fun j => iblk5_apply m c t j
  rw [e0, e1, e3, e5, iblk2_eq m c t, iblk4_eq m c t]

/-- Row r of the assignment-matrix tile a point of graph b loads is S[b, 1024·i + r, ·], for the matrix of ANY point
    t' of the same graph. -/
theorem tileS_asg (t t' : Fin cfg0.N) (b : Fin 16) (ii ii' : Fin 2) (ht : t.val = 2 * b.val + ii.val)
    (ht' : t'.val = 2 * b.val + ii'.val) (r : Fin 1024) (k : Fin 64) :
    tileS (asg m c t') (grid0.coords t) (ix2 r k) = assign (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) b (tileRow ii r) k :=
  (tileS_apply (asg m c t') t b ii ht r k).trans (asg_apply m c t' b ii' ht' (tileRow ii r) k)

/-- Row r of the x tile a point of graph b loads is x[b, 1024·i + r, ·]. -/
theorem tileX_x (t : Fin cfg0.N) (b : Fin 16) (ii : Fin 2) (ht : t.val = 2 * b.val + ii.val) (r : Fin 1024) (f : Fin 128) :
    tileX (iblk m c 0 t) (grid0.coords t) (ix3 (0 : Fin 1) r f) = m ((c : Thread nD τ).loc main_arg0) (ix3 b (tileRow ii r) f) :=
  (tileX_apply (iblk m c 0 t) t b ii ht r f).trans (iblk0_apply m c t b ii ht (tileRow ii r) f)

/-- The first output's block after graph b's second point, at (k, f): pooledX[b,k,f]. -/
theorem out7_apply (t : Fin cfg0.N) (b : Fin 16) (ht : t.val = 2 * b.val + 1) (k : Fin 64) (f : Fin 128) :
    (outsAt0 m c t.val t.isLt).1 (ix3 (0 : Fin 1) k f) = pooledX (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (ix3 b k f) := by
  have hN : cfg0.N = 32 := N_0
  have h1 : t.val % 2 = 1 := by omega
  have htN := t.isLt
  let t' : Fin cfg0.N := ⟨t.val - 1, by omega⟩
  have ht1 : t.val = 2 * b.val + (1 : Fin 2).val := ht
  have ht0 : t'.val = 2 * b.val + (0 : Fin 2).val := by show t.val - 1 = 2 * b.val + 0; omega
  rw [out7_odd m c t t' h1 rfl]
  refine (pay5_apply _ k f).trans ?_
  refine (pay4_apply _ _ _ k f).trans ?_
  unfold accX0
  rw [pay4_apply, pay1_apply, zero_add]
  have s0 : ∀ r : Fin 1024, tileS (asg m c t') (grid0.coords t') (ix2 r k) * tileX (iblk m c 0 t') (grid0.coords t') (ix3 (0 : Fin 1) r f)
      = assign (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) b (tileRow 0 r) k * m ((c : Thread nD τ).loc main_arg0) (ix3 b (tileRow 0 r) f) := fun r => by
    rw [tileS_asg m c t' t' b 0 0 ht0 ht0 r k, tileX_x m c t' b 0 ht0 r f]
  have s1 : ∀ r : Fin 1024, tileS (asg m c t') (grid0.coords t) (ix2 r k) * tileX (iblk m c 0 t) (grid0.coords t) (ix3 (0 : Fin 1) r f)
      = assign (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) b (tileRow 1 r) k * m ((c : Thread nD τ).loc main_arg0) (ix3 b (tileRow 1 r) f) := fun r => by
    rw [tileS_asg m c t t' b 1 0 ht1 ht0 r k, tileX_x m c t b 1 ht1 r f]
  rw [Finset.sum_congr rfl (fun r _ => s0 r), Finset.sum_congr rfl (fun r _ => s1 r)]
  unfold pooledX
  exact (Cert.TileSum.sum_tiles (fun n => assign (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) b n k * m ((c : Thread nD τ).loc main_arg0) (ix3 b n f))).symm

/-- One row of adj·S, from a [1,1024,2048] block and a [2048,64] matrix whose entries are known. -/
theorem inner_sum (X6 : Vec Ideal S1x1024x2048 .f32) (A : Vec Ideal S2048x64 .f32)
    (adj : (⟨3, ![16, 2048, 2048]⟩ : Shape).Idx → EReal) (S : Fin 2048 → EReal) (b : Fin 16) (ii : Fin 2) (r : Fin 1024) (j : Fin 64)
    (h6 : ∀ mm : Fin 2048, X6 (ix3 (0 : Fin 1) r mm) = adj (ix3 b (tileRow ii r) mm))
    (hA : ∀ mm : Fin 2048, A (ix2 mm j) = S mm) :
    (∑ mm : Fin 2048, X6 (ix3 (0 : Fin 1) r mm) * A (ix2 mm j)) = ∑ mm : Fin 2048, adj (ix3 b (tileRow ii r) mm) * S mm :=
  Finset.sum_congr rfl fun mm _ => by rw [h6 mm, hA mm]

/-- The second output's block after graph b's second point, at (k, j): pooledAdj[b,k,j]. -/
theorem out8_apply (t : Fin cfg0.N) (b : Fin 16) (ht : t.val = 2 * b.val + 1) (k j : Fin 64) :
    (outsAt0 m c t.val t.isLt).2.1 (ix3 (0 : Fin 1) k j) = pooledAdj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b k j) := by
  have hN : cfg0.N = 32 := N_0
  have h1 : t.val % 2 = 1 := by omega
  have htN := t.isLt
  let t' : Fin cfg0.N := ⟨t.val - 1, by omega⟩
  have ht1 : t.val = 2 * b.val + (1 : Fin 2).val := ht
  have ht0 : t'.val = 2 * b.val + (0 : Fin 2).val := by show t.val - 1 = 2 * b.val + 0; omega
  rw [out8_odd m c t t' h1 rfl]
  refine (pay6_apply _ k j).trans ?_
  refine (pay3_apply _ _ _ _ k j).trans ?_
  unfold accA0
  rw [pay3_apply, pay2_apply, zero_add]
  have eS0 := fun r : Fin 1024 => tileS_asg m c t' t' b 0 0 ht0 ht0 r k
  have eS1 := fun r : Fin 1024 => tileS_asg m c t t' b 1 0 ht1 ht0 r k
  have eI0 := fun r : Fin 1024 => inner_sum (iblk m c 6 t') (asg m c t') (m ((c : Thread nD τ).loc main_arg1))
    (fun mm => assign (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) b mm j) b 0 r j
    (fun mm => iblk6_apply m c t' b 0 ht0 r mm) (fun mm => asg_apply m c t' b 0 ht0 mm j)
  have eI1 := fun r : Fin 1024 => inner_sum (iblk m c 6 t) (asg m c t') (m ((c : Thread nD τ).loc main_arg1))
    (fun mm => assign (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) b mm j) b 1 r j
    (fun mm => iblk6_apply m c t b 1 ht1 r mm) (fun mm => asg_apply m c t' b 0 ht0 mm j)
  simp only [eS0, eS1, eI0, eI1]
  refine Eq.symm ?_
  unfold pooledAdj
  exact Cert.TileSum.sum_tiles _

end Cert.KValue

end
-- ==== Proof.Final.lean ====
/-
  From the blocks written back to the result arrays, and the run of the idealized kernel re-posted.

  Each of the two pooled outputs is a [16, 64, ·] array written one graph at a time: the only points that write back are
  the odd points 2·b + 1, and point 2·b + 1 writes block (b, 0, 0) — all of [b, ·, ·]. That block is the
  specification's array restricted to graph b, the sixteen blocks tile the array, so the array ends holding the
  specification's array. The third result is a constant the host writes after the call.
-/
import proofs.«111252_j38809324486702_2_alg».proof.Proof.ValueAt
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KFinal

open Cert.KernelIdeal Cert.KernelIdeal.Gen Cert.KValue Cert.Spec

variable (m : (ℓ : Loc nD τ sig) → Buf (Elt Ideal) ℓ) (c : Dev nD)

/-- The printed index map of output window 7: point t writes block (t / 2, 0, 0). -/
theorem idx_facts7 : ∀ t : Fin cfg0.N, win0_7.index t (0 : Fin 3) = t.val / 2 ∧ win0_7.index t (1 : Fin 3) = 0
    ∧ win0_7.index t (2 : Fin 3) = 0 :=
  (by decide +kernel : ∀ t : Fin grid0.N, _)

/-- An index of the array is in point t's block iff each coordinate is in the block's range on its axis. -/
theorem mem_blk7 (t : Fin cfg0.N) (i : S16x64x128.Idx) :
    i ∈ ((cfg0.win 7).blk t).view.set ↔ ∀ a : Fin 3, win0_7.index t a * S1x64x128.size a ≤ (i a).val
      ∧ (i a).val < win0_7.index t a * S1x64x128.size a + S1x64x128.size a := by
  show i ∈ ((View.whole main_v3_0).slice (win0_7.rect t)).set ↔ _
  rw [View.set_slice_whole, Rect.mem_set_unit]
  exact Iff.rfl

/-- What a flushing point (an odd point 2·b + 1) writes back to output window 7 is block (b, 0, 0) of the
    specification's array. -/
theorem flushed7_eq (t : Fin cfg0.N) (hf : (cfg0.win 7).flush t = true) :
    (dats m 0 c).flushed 7 t = ((cfg0.win 7).blk t).view.read (Elt Ideal) (pooledX (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) := by
  have h1 : t.val % 2 = 1 := (flush0_7 t).mp hf
  have hN : cfg0.N = 32 := N_0
  have htN := t.isLt
  show (cfg0.win 7).cut (grid0.coords t) ((dats m 0 c).after 7 t) = _
  rw [after0_7]
  funext j
  obtain ⟨z, k, f, rfl⟩ : ∃ (z : Fin 1) (k : Fin 64) (f : Fin 128), j = ix3 z k f := ⟨j 0, j 1, j 2, eq_ix3 j⟩
  obtain rfl : z = 0 := Subsingleton.elim _ _
  have ht : t.val = 2 * (⟨t.val / 2, by omega⟩ : Fin 16).val + 1 := by show t.val = 2 * (t.val / 2) + 1; omega
  show (outsAt0 m c t.val t.isLt).1 (ix3 (0 : Fin 1) k f) = (pooledX (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (((cfg0.win 7).blk t).view.emb (ix3 (0 : Fin 1) k f))
  rw [out7_apply m c t ⟨t.val / 2, by omega⟩ ht k f]
  refine congrArg (pooledX (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) ?_
  obtain ⟨e0, e1, e2⟩ := idx_facts7 t
  funext a; apply Fin.ext
  match a with
  | ⟨0, _⟩ => show t.val / 2 = win0_7.index t (0 : Fin 3) * 1 + 1 * 0; rw [e0]; omega
  | ⟨1, _⟩ => show k.val = win0_7.index t (1 : Fin 3) * 64 + 1 * k.val; rw [e1]; omega
  | ⟨2, _⟩ => show f.val = win0_7.index t (2 : Fin 3) * 128 + 1 * f.val; rw [e2]; omega

/-- Every index (b, ·, ·) of the array is in the block of the flushing point 2·b + 1. -/
theorem cover7 (i : S16x64x128.Idx) : ∃ t : Fin cfg0.N, (cfg0.win 7).flush t = true ∧ i ∈ ((cfg0.win 7).blk t).view.set := by
  have hN : cfg0.N = 32 := N_0
  have hN' : grid0.N = 32 := N_0
  have hi0 : (i 0).val < 16 := (i 0).isLt
  have hi1 : (i 1).val < 64 := (i 1).isLt
  have hi2 : (i 2).val < 128 := (i 2).isLt
  refine ⟨⟨2 * (i 0).val + 1, by omega⟩, (flush0_7 _).mpr (by show (2 * (i 0).val + 1) % 2 = 1; omega), ?_⟩
  rw [mem_blk7]
  obtain ⟨e0, e1, e2⟩ := idx_facts7 ⟨2 * (i 0).val + 1, by omega⟩
  have e0' : win0_7.index ⟨2 * (i 0).val + 1, by omega⟩ (0 : Fin 3) = (i 0).val := by rw [e0]; show (2 * (i 0).val + 1) / 2 = (i 0).val; omega
  intro a
  match a with
  | ⟨0, _⟩ => show win0_7.index _ (0 : Fin 3) * 1 ≤ (i 0).val ∧ (i 0).val < win0_7.index _ (0 : Fin 3) * 1 + 1; rw [e0']; omega
  | ⟨1, _⟩ => show win0_7.index _ (1 : Fin 3) * 64 ≤ (i 1).val ∧ (i 1).val < win0_7.index _ (1 : Fin 3) * 64 + 64; rw [e1]; omega
  | ⟨2, _⟩ => show win0_7.index _ (2 : Fin 3) * 128 ≤ (i 2).val ∧ (i 2).val < win0_7.index _ (2 : Fin 3) * 128 + 128; rw [e2]; omega

/-- So the array of output window 7 ends holding the specification's array. -/
theorem final7 : (dats m 0 c).arrAt 7 cfg0.N = pooledX (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (pooledX (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (flushed7_eq m c) (cover7)

/-- The printed index map of output window 8: point t writes block (t / 2, 0, 0). -/
theorem idx_facts8 : ∀ t : Fin cfg0.N, win0_8.index t (0 : Fin 3) = t.val / 2 ∧ win0_8.index t (1 : Fin 3) = 0
    ∧ win0_8.index t (2 : Fin 3) = 0 :=
  (by decide +kernel : ∀ t : Fin grid0.N, _)

/-- An index of the array is in point t's block iff each coordinate is in the block's range on its axis. -/
theorem mem_blk8 (t : Fin cfg0.N) (i : S16x64x64.Idx) :
    i ∈ ((cfg0.win 8).blk t).view.set ↔ ∀ a : Fin 3, win0_8.index t a * S1x64x64.size a ≤ (i a).val
      ∧ (i a).val < win0_8.index t a * S1x64x64.size a + S1x64x64.size a := by
  show i ∈ ((View.whole main_v3_1).slice (win0_8.rect t)).set ↔ _
  rw [View.set_slice_whole, Rect.mem_set_unit]
  exact Iff.rfl

/-- What a flushing point (an odd point 2·b + 1) writes back to output window 8 is block (b, 0, 0) of the
    specification's array. -/
theorem flushed8_eq (t : Fin cfg0.N) (hf : (cfg0.win 8).flush t = true) :
    (dats m 0 c).flushed 8 t = ((cfg0.win 8).blk t).view.read (Elt Ideal) (pooledAdj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  have h1 : t.val % 2 = 1 := (flush0_8 t).mp hf
  have hN : cfg0.N = 32 := N_0
  have htN := t.isLt
  show (cfg0.win 8).cut (grid0.coords t) ((dats m 0 c).after 8 t) = _
  rw [after0_8]
  funext j
  obtain ⟨z, k, f, rfl⟩ : ∃ (z : Fin 1) (k : Fin 64) (f : Fin 64), j = ix3 z k f := ⟨j 0, j 1, j 2, eq_ix3 j⟩
  obtain rfl : z = 0 := Subsingleton.elim _ _
  have ht : t.val = 2 * (⟨t.val / 2, by omega⟩ : Fin 16).val + 1 := by show t.val = 2 * (t.val / 2) + 1; omega
  show (outsAt0 m c t.val t.isLt).2.1 (ix3 (0 : Fin 1) k f) = (pooledAdj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (((cfg0.win 8).blk t).view.emb (ix3 (0 : Fin 1) k f))
  rw [out8_apply m c t ⟨t.val / 2, by omega⟩ ht k f]
  refine congrArg (pooledAdj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) ?_
  obtain ⟨e0, e1, e2⟩ := idx_facts8 t
  funext a; apply Fin.ext
  match a with
  | ⟨0, _⟩ => show t.val / 2 = win0_8.index t (0 : Fin 3) * 1 + 1 * 0; rw [e0]; omega
  | ⟨1, _⟩ => show k.val = win0_8.index t (1 : Fin 3) * 64 + 1 * k.val; rw [e1]; omega
  | ⟨2, _⟩ => show f.val = win0_8.index t (2 : Fin 3) * 64 + 1 * f.val; rw [e2]; omega

/-- Every index (b, ·, ·) of the array is in the block of the flushing point 2·b + 1. -/
theorem cover8 (i : S16x64x64.Idx) : ∃ t : Fin cfg0.N, (cfg0.win 8).flush t = true ∧ i ∈ ((cfg0.win 8).blk t).view.set := by
  have hN : cfg0.N = 32 := N_0
  have hN' : grid0.N = 32 := N_0
  have hi0 : (i 0).val < 16 := (i 0).isLt
  have hi1 : (i 1).val < 64 := (i 1).isLt
  have hi2 : (i 2).val < 64 := (i 2).isLt
  refine ⟨⟨2 * (i 0).val + 1, by omega⟩, (flush0_8 _).mpr (by show (2 * (i 0).val + 1) % 2 = 1; omega), ?_⟩
  rw [mem_blk8]
  obtain ⟨e0, e1, e2⟩ := idx_facts8 ⟨2 * (i 0).val + 1, by omega⟩
  have e0' : win0_8.index ⟨2 * (i 0).val + 1, by omega⟩ (0 : Fin 3) = (i 0).val := by rw [e0]; show (2 * (i 0).val + 1) / 2 = (i 0).val; omega
  intro a
  match a with
  | ⟨0, _⟩ => show win0_8.index _ (0 : Fin 3) * 1 ≤ (i 0).val ∧ (i 0).val < win0_8.index _ (0 : Fin 3) * 1 + 1; rw [e0']; omega
  | ⟨1, _⟩ => show win0_8.index _ (1 : Fin 3) * 64 ≤ (i 1).val ∧ (i 1).val < win0_8.index _ (1 : Fin 3) * 64 + 64; rw [e1]; omega
  | ⟨2, _⟩ => show win0_8.index _ (2 : Fin 3) * 64 ≤ (i 2).val ∧ (i 2).val < win0_8.index _ (2 : Fin 3) * 64 + 64; rw [e2]; omega

/-- So the array of output window 8 ends holding the specification's array. -/
theorem final8 : (dats m 0 c).arrAt 8 cfg0.N = pooledAdj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 8 (pooledAdj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (flushed8_eq m c) (cover8)

/-- The third result: the host's broadcast of the word 1.0, written after the call. -/
theorem tail_v4 : Pipeline.afterTail₀ cfgs (dats m) 0 (V0 m) [hostOps1] c main_v4
    = broadcastInDim S16x64 ![] bcast_S_S16x64 (constant (F := Ideal) S_ .f32 0x3F800000#32) := by
  unfold Pipeline.afterTail₀
  show StableHlo.after hostOps1 _ (Proc.devRef .tc main_v4) = _
  after_results

/-- The run of the idealized kernel: the two pooled results at the specification's arrays, the third at the constant,
    the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v3_0) = pooledX (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v3_1) = pooledAdj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v4) = broadcastInDim S16x64 ![] bcast_S_S16x64 (constant (F := Ideal) S_ .f32 0x3F800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final7 m c), ((h c).1 8).trans (final8 m c),
      ((h c).2 main_v4 (Pipeline.mem_restRefs_of main_v4 (by decide) (by decide))).trans (tail_v4 m c),
      ((h c).1 0).trans ((((dats m) 0 c).arrAt_in 0 rfl _).trans ((A_eq m c 0).trans (V_main_arg0 m c))),
      ((h c).1 6).trans ((((dats m) 0 c).arrAt_in 6 rfl _).trans ((A_eq m c 6).trans (V_main_arg1 m c))),
      (((h c).2 main_arg2 (Pipeline.mem_restRefs_of main_arg2 (by decide) (by decide))).trans (W_main_arg2 m (dats m) c)),
      ((h c).1 2).trans ((((dats m) 0 c).arrAt_in 2 rfl _).trans ((A_eq m c 2).trans (V_main_arg3 m c))),
      (((h c).2 main_arg4 (Pipeline.mem_restRefs_of main_arg4 (by decide) (by decide))).trans (W_main_arg4 m (dats m) c)),
      ((h c).1 4).trans ((((dats m) 0 c).arrAt_in 4 rfl _).trans ((A_eq m c 4).trans (V_main_arg5 m c))),
      (((h c).2 main_arg6 (Pipeline.mem_restRefs_of main_arg6 (by decide) (by decide))).trans (W_main_arg6 m (dats m) c))⟩)
    (run_main m ρ)

end Cert.KFinal

end
-- ==== Proof.lean ====
/-
  A graph-pooling kernel against its jnp reference, equal on the extended reals.

  For each of 16 graphs with 2048 nodes, 128 features and a 2048×2048 adjacency matrix, both programs compute the
  assignment matrix S = softmax over 64 clusters of relu(x·W1 + b1)·W2 + b2 + (−1e9)·(1 − mask), the row's maximum
  subtracted before the exponential, and return Sᵀ·x, Sᵀ·(adj·S) and a constant array of ones. The kernel walks each
  graph in two tiles of 1024 nodes: at a graph's first grid point it builds S in a scratch buffer and zeroes two
  accumulators, at both points it adds the tile's products to the accumulators, and at the second it writes them out.
  The reference contracts over all 2048 nodes at once. The two agree entry by entry because both build S by the same
  operations on the same words, and a sum over 2048 rows is the sum over the first 1024 plus the sum over the last
  1024 in any commutative additive monoid: no distributivity, no cancellation, hence no use of the inputs' finiteness.

  The modules: Spec (the common value), RefSpec (the reference's run is Spec), PayAssign and PayAcc (the kernel body's
  arithmetic read at an index), Blocks (the windows' blocks read off the argument arrays), Pieces, Tiles and Chain
  (what each grid point leaves in the scratch buffers and the outputs), TileSum (the sum law), ValueAt (the written
  blocks are Spec's), Final (the result arrays, and the kernel's run re-posted). Here: the five claims.
-/
import proofs.«111252_j38809324486702_2_alg».proof.Defs
import proofs.«111252_j38809324486702_2_alg».proof.Proof.Gen.Kernel
import proofs.«111252_j38809324486702_2_alg».proof.Proof.Gen.Kernel.Skeleton
import proofs.«111252_j38809324486702_2_alg».proof.Proof.Gen.Kernel.Launch
import proofs.«111252_j38809324486702_2_alg».proof.Proof.Gen.Kernel.Points
import proofs.«111252_j38809324486702_2_alg».proof.Proof.Gen.Kernel.Frame
import proofs.«111252_j38809324486702_2_alg».proof.Proof.Gen.KernelIdeal
import proofs.«111252_j38809324486702_2_alg».proof.Proof.Gen.KernelIdeal.Skeleton
import proofs.«111252_j38809324486702_2_alg».proof.Proof.Gen.KernelIdeal.Launch
import proofs.«111252_j38809324486702_2_alg».proof.Proof.Gen.KernelIdeal.Points
import proofs.«111252_j38809324486702_2_alg».proof.Proof.Gen.KernelIdeal.Frame
import proofs.«111252_j38809324486702_2_alg».proof.Proof.Gen.ReferenceIdeal
import proofs.«111252_j38809324486702_2_alg».proof.Proof.Gen.Pre_finite_inputs
import proofs.«111252_j38809324486702_2_alg».proof.Proof.Gen.ReferenceIdeal.Run
import proofs.«111252_j38809324486702_2_alg».proof.Proof.Gen.ReferenceIdeal.Read
import proofs.«111252_j38809324486702_2_alg».proof.Proof.RefSpec
import proofs.«111252_j38809324486702_2_alg».proof.Proof.Final
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k [Cert.Kernel.Facts] [Cert.Pre_finite_inputs.Facts] : Cert.frame_Kernel :=
  fun m ρ _ => Cert.Kernel.Gen.frame m ρ

/-- So does its idealization. -/
theorem frame_ki [Cert.KernelIdeal.Facts] [Cert.Pre_finite_inputs.Facts] : Cert.frame_KernelIdeal :=
  fun m ρ _ => Cert.KernelIdeal.Gen.frame m ρ

/-- The reference is a straight line of host operations: its run, the results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

/-- The ideal pass rewrote nothing. -/
theorem preserves : Cert.preserves_Kernel_KernelIdeal := trivial

/-- At the ideal instance the kernel's result arrays end at the specification's arrays of its arguments, and the
    reference's at the same arrays of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.pooledX (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)),
    fun c => Cert.Spec.pooledAdj (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)),
    _,
    Cert.KFinal.run m ρ, ?_⟩
  refine (θ_run Cert.ReferenceIdeal.defs _ _).mono (fun _ h c => ?_) (Cert.ReferenceIdeal.Value.run (F := Ideal) m' ρ')
  obtain ⟨h27, h29, h30, hargs⟩ := h c
  obtain ⟨a0, a1, a2, a3, a4, a5, a6⟩ := hagree c
  refine ⟨?_, ?_, ?_, hargs⟩
  · rw [h27, Cert.ReferenceIdeal.Read.val_main_v27_eq, Cert.RefSpec.v27_eq, a0, a2, a3, a4, a5, a6]
  · rw [h29, Cert.ReferenceIdeal.Read.val_main_v29_eq, Cert.RefSpec.v29_eq, a0, a1, a2, a3, a4, a5, a6]
  · rw [h30]

theorem claim : Cert.Claim := ⟨Cert.Kernel.Gen.facts, Cert.KernelIdeal.Gen.facts, Cert.ReferenceIdeal.Gen.facts, Cert.Pre_finite_inputs.Gen.facts,
  @frame_k _ _, @frame_ki _ _, @frame_ri _ _, preserves, @algebraic _ _ _⟩

end Cert.Proof

end
